-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x32 : Shape := ⟨2, ![256, 32]⟩
abbrev S1x32 : Shape := ⟨2, ![1, 32]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S1x32 : S_.BroadcastsInDim S1x32 (![] : Fin 0 → Fin S1x32.rank)
  reducesTo_S1x32_S_d0_1 : S1x32.ReducesTo [0, 1] S_

variable [Facts]

def fn_part1 {F : FTy → Type} [FloatOps F] (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  main_v18

def fn {F : FTy → Type} [FloatOps F] (main_arg0 : FVec F S100000x256 .f32) (main_arg1 : FVec F S256x32 .f32) (main_arg2 : FVec F S1x32 .f32) (main_arg3 : FVec F S1x32 .f32) (main_arg4 : IVec S1600000 32) (main_arg5 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_v13 main_v16
-- ==== Kernel.lean ====
abbrev S100000x256 : Shape := ⟨2, ![100000, 256]⟩
abbrev S256x32 : Shape := ⟨2, ![256, 32]⟩
abbrev S1x32 : Shape := ⟨2, ![1, 32]⟩
abbrev S1600000 : Shape := ⟨1, ![1600000]⟩
abbrev S100000x32 : Shape := ⟨2, ![100000, 32]⟩
abbrev S100000x1 : Shape := ⟨2, ![100000, 1]⟩
abbrev S5000x256 : Shape := ⟨2, ![5000, 256]⟩
abbrev S5000x32 : Shape := ⟨2, ![5000, 32]⟩
abbrev S5000x1 : Shape := ⟨2, ![5000, 1]⟩
abbrev S5000 : Shape := ⟨1, ![5000]⟩
abbrev S100000 : Shape := ⟨1, ![100000]⟩
abbrev S_ : Shape := ⟨0, ![]⟩
abbrev S1600000x1 : Shape := ⟨2, ![1600000, 1]⟩
abbrev S12500x128 : Shape := ⟨2, ![12500, 128]⟩
abbrev S12500 : Shape := ⟨1, ![12500]⟩
abbrev S12500x1 : Shape := ⟨2, ![12500, 1]⟩
abbrev S1 : Shape := ⟨1, ![1]⟩
abbrev S1x1 : Shape := ⟨2, ![1, 1]⟩
abbrev S1600000x32 : Shape := ⟨2, ![1600000, 32]⟩
abbrev S8000x1 : Shape := ⟨2, ![8000, 1]⟩
abbrev S8000x32 : Shape := ⟨2, ![8000, 32]⟩

abbrev nBuf : Space → Nat
  | .hbm => 55
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S256x32, .f32⟩
  | .hbm, ⟨2, _⟩ => ⟨S1x32, .f32⟩
  | .hbm, ⟨3, _⟩ => ⟨S1x32, .f32⟩
  | .hbm, ⟨4, _⟩ => ⟨S1600000, .i32⟩
  | .hbm, ⟨5, _⟩ => ⟨S1600000, .i32⟩
  | .hbm, ⟨6, _⟩ => ⟨S100000x32, .f32⟩
  | .hbm, ⟨7, _⟩ => ⟨S100000x1, .f32⟩
  | .hbm, ⟨8, _⟩ => ⟨S100000x1, .f32⟩
  | .hbm, ⟨9, _⟩ => ⟨S100000, .f32⟩
  | .hbm, ⟨10, _⟩ => ⟨S100000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S12500x128, .f32⟩
  | .hbm, ⟨30, _⟩ => ⟨S12500x128, .f32⟩
  | .hbm, ⟨31, _⟩ => ⟨S12500x128, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x32, .f32⟩
  | .hbm, ⟨46, _⟩ => ⟨S1600000x1, .f32⟩
  | .hbm, ⟨47, _⟩ => ⟨S1600000x32, .f32⟩
  | .hbm, ⟨48, _⟩ => ⟨S_, .f32⟩
  | .hbm, ⟨49, _⟩ => ⟨S100000x32, .f32⟩
  | .hbm, ⟨50, _⟩ => ⟨S1600000x1, .i32⟩
  | .hbm, ⟨51, _⟩ => ⟨S100000x32, .f32⟩
  | .hbm, ⟨52, _⟩ => ⟨S100000x1, .f32⟩
  | .hbm, ⟨53, _⟩ => ⟨S100000x32, .f32⟩
  | .hbm, ⟨54, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S1x32, .f32⟩
  | .local _ .vmem, ⟨4, _⟩ => ⟨S1x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S12500x128, .f32⟩
  | .local _ .vmem, ⟨12, _⟩ => ⟨S12500x128, .f32⟩
  | .local _ .vmem, ⟨13, _⟩ => ⟨S12500x128, .f32⟩
  | .local _ .vmem, ⟨14, _⟩ => ⟨S8000x1, .f32⟩
  | .local _ .vmem, ⟨15, _⟩ => ⟨S8000x1, .f32⟩
  | .local _ .vmem, ⟨16, _⟩ => ⟨S8000x32, .f32⟩
  | .local _ .vmem, ⟨17, _⟩ => ⟨S8000x32, .f32⟩
  | .local _ .vmem, ⟨18, _⟩ => ⟨S8000x32, .f32⟩
  | .local _ .vmem, ⟨19, _⟩ => ⟨S8000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12500x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  inb_S1x32_S1x32_0_0 : ∀ a, (![0, 0] : Fin 2 → Nat) a + S1x32.size a ≤ S1x32.size a
  h_S1x32 : 0 < S1x32.numel
  broadcasts_S1x32_S5000x32 : S1x32.Broadcasts S5000x32
  reduces_S5000x32_S5000 : S5000x32.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S12500x128 : S1600000.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  reduces_S12500x128_S12500 : S12500x128.Reduces [1] S12500
  shapeCasts_S12500_S12500x1 : S12500.ShapeCasts S12500x1
  reduces_S12500x1_S1 : S12500x1.Reduces [0] S1
  shapeCasts_S1_S1x1 : S1.ShapeCasts S1x1
  broadcasts_S1x1_S12500x128 : S1x1.Broadcasts S12500x128
  shapeCasts_S12500x128_S1600000 : S12500x128.ShapeCasts S1600000
  bcast_S_S100000 : S_.BroadcastsInDim S100000 (![] : Fin 0 → Fin S100000.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S5000x256_S256x32_S5000x32_1_0_0_1_n_n_wf : DotDims.WF S5000x256 S256x32 S5000x32 [1] [0] [0] [1] [] []
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S100000x1.size a
  hwx0_6 : ∀ i : grid0.Coords, EltTy.bits .f32 = 32 ∨ (Rect.block (s := S100000x1) S5000x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12500x128.size a ≤ S12500x128.size a
  hwx1_2 : ∀ i : grid1.Coords, EltTy.bits .f32 = 32 ∨ (Rect.block (s := S12500x128) S12500x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S1600000x1.size a
  hwx2_0 : ∀ i : grid2.Coords, EltTy.bits .f32 = 32 ∨ (Rect.block (s := S1600000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S1600000x32.size a
  hwx2_1 : ∀ i : grid2.Coords, EltTy.bits .f32 = 32 ∨ (Rect.block (s := S1600000x32) S8000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S1600000x32.size a
  hwx2_2 : ∀ i : grid2.Coords, EltTy.bits .f32 = 32 ∨ (Rect.block (s := S1600000x32) S8000x32.size (cc2_transform_2 i) (hinb2_2 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v18) S12500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S12500x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v31) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x32 : Shape := ⟨2, ![256, 32]⟩
abbrev S1x32 : Shape := ⟨2, ![1, 32]⟩
abbrev S1600000 : Shape := ⟨1, ![1600000]⟩
abbrev S100000x32 : Shape := ⟨2, ![100000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩

abbrev nBuf : Space → Nat
  | .hbm => 75
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x32, .f32⟩
  | .hbm, ⟨2, _⟩ => ⟨S1x32, .f32⟩
  | .hbm, ⟨3, _⟩ => ⟨S1x32, .f32⟩
  | .hbm, ⟨4, _⟩ => ⟨S1600000, .i32⟩
  | .hbm, ⟨5, _⟩ => ⟨S1600000, .i32⟩
  | .hbm, ⟨6, _⟩ => ⟨S100000x32, .f32⟩
  | .hbm, ⟨7, _⟩ => ⟨S100000x32, .f32⟩
  | .hbm, ⟨8, _⟩ => ⟨S100000x32, .f32⟩
  | .hbm, ⟨9, _⟩ => ⟨S_, .f32⟩
  | .hbm, ⟨10, _⟩ => ⟨S100000, .f32⟩
  | .hbm, ⟨11, _⟩ => ⟨S100000x32, .f32⟩
  | .hbm, ⟨12, _⟩ => ⟨S100000x32, .f32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S_, .f32⟩
  | .hbm, ⟨36, _⟩ => ⟨S1600000, .f32⟩
  | .hbm, ⟨37, _⟩ => ⟨S1600000, .i1⟩
  | .hbm, ⟨38, _⟩ => ⟨S_, .f32⟩
  | .hbm, ⟨39, _⟩ => ⟨S1600000, .f32⟩
  | .hbm, ⟨40, _⟩ => ⟨S1600000, .f32⟩
  | .hbm, ⟨41, _⟩ => ⟨S1600000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S_, .f32⟩
  | .hbm, ⟨49, _⟩ => ⟨S1600000, .f32⟩
  | .hbm, ⟨50, _⟩ => ⟨S1600000, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x32, .f32⟩
  | .hbm, ⟨66, _⟩ => ⟨S1600000x32, .f32⟩
  | .hbm, ⟨67, _⟩ => ⟨S1600000x32, .f32⟩
  | .hbm, ⟨68, _⟩ => ⟨S_, .f32⟩
  | .hbm, ⟨69, _⟩ => ⟨S100000x32, .f32⟩
  | .hbm, ⟨70, _⟩ => ⟨S1600000x1, .i32⟩
  | .hbm, ⟨71, _⟩ => ⟨S100000x32, .f32⟩
  | .hbm, ⟨72, _⟩ => ⟨S100000x1, .f32⟩
  | .hbm, ⟨73, _⟩ => ⟨S100000x32, .f32⟩
  | .hbm, ⟨74, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000_S_d0 : S1600000.ReducesTo [0] S_
  bcast_S_S100000 : S_.BroadcastsInDim S100000 (![] : Fin 0 → Fin S100000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x256_S256x32_S100000x32_1_0_0_1_n_n_wf : DotDims.WF S100000x256 S256x32 S100000x32 [1] [0] [0] [1] [] []
  gather_S100000_S1600000x1_S1600000_n_0_n_n_0_1_1_wf : GatherDims.WF S100000 S1600000x1 S1600000 [] [0] [] [0] [] 1 ![1]
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KRun.lean ====
/-
  The idealized kernel program's run with its result named.

  @main is three pipelined regions among stretches of host operations.  The generated frame module folds the buffer
  contents through the six segments (`Gen.W0` … `Gen.W6`: a host stretch applies its operations, a region replaces
  its output arrays by what its write-backs leave) and launches the segments; its own conclusion keeps only the six
  argument arrays.  Here the same launch is read at the result buffer as well: every weakly fair execution terminates
  with the result array at the last fold `Gen.W6` and the arguments as launched.
-/
import proofs.«145616_j62182536511744_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the six argument arrays as launched. -/
theorem run_main : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.Spec.lean ====
/-
  The result both programs compute, as ONE function of the six argument arrays, built from the host
  operations in the order the reference applies them:

    Xp   = X · W                                  (node features projected, [100000, 32])
    s0_i = Σ_q Xp[i,q] · a0[0,q],  s1 likewise    (the two attention halves per node)
    u_e  = s0[row_e],  v_e = s1[col_e]            (gathered per edge; a negative index counts from the end)
    l_e  = leaky_relu(u_e + v_e)                  (slope 0.2)
    att_e = exp((l_e − min l) / (max l − min l))  (one global minimum and maximum over all edges)
    out[i,:] = (Σ_{row_e = i} att_e · Xp[col_e,:]) / (Σ_{row_e = i} att_e)

  Each stage is a definition of its own, so that a proof about one stage never opens another.
-/
import proofs.«145616_j62182536511744_1_alg».proof.Proof.Gen.ReferenceIdeal

noncomputable section

namespace Cert.ReferenceIdeal.Spec

open Cert.ReferenceIdeal Cert.ReferenceIdeal.Gen Idealize.ShloMosaic Idealize.SL.Sem

variable {F : FTy → Type} [FloatOps F]

/-- An edge's node index as a gather takes it: a negative index counted from the end (`i + 100000`), the
    others as they are; as a column of one-element index vectors. -/
def idxCol (i : (⟨S1600000, .i32⟩ : BufTy).Contents (Elt F)) : (⟨S1600000x1, .i32⟩ : BufTy).Contents (Elt F) :=
  broadcastInDim S1600000x1 ![0] bcast_S1600000_S1600000x1_0
    (select
      (cmpi .slt i ((broadcastInDim S1600000 ![] bcast_S_S1600000 : (⟨S_, .i32⟩ : BufTy).Contents (Elt F) → (⟨S1600000, .i32⟩ : BufTy).Contents (Elt F)) (constantI S_ 32 0#32)) : (⟨S1600000, .i1⟩ : BufTy).Contents (Elt F))
      (addi i ((broadcastInDim S1600000 ![] bcast_S_S1600000 : (⟨S_, .i32⟩ : BufTy).Contents (Elt F) → (⟨S1600000, .i32⟩ : BufTy).Contents (Elt F)) (constantI S_ 32 100000#32)) : (⟨S1600000, .i32⟩ : BufTy).Contents (Elt F))
      i : (⟨S1600000, .i32⟩ : BufTy).Contents (Elt F))

/-- The projected node features `X · W`. -/
def proj (X : (⟨S100000x256, .f32⟩ : BufTy).Contents (Elt F)) (W : (⟨S256x32, .f32⟩ : BufTy).Contents (Elt F)) :
    (⟨S100000x32, .f32⟩ : BufTy).Contents (Elt F) :=
  Host.dotGeneral dot_S100000x256_S256x32_S100000x32_1_0_0_1_n_n none X W

/-- One attention half per node: the row sums of `Xp` weighted by the row vector `a`. -/
def half (Xp : (⟨S100000x32, .f32⟩ : BufTy).Contents (Elt F)) (a : (⟨S1x32, .f32⟩ : BufTy).Contents (Elt F)) :
    (⟨S100000, .f32⟩ : BufTy).Contents (Elt F) :=
  Host.reduceAdd (mulf Xp (broadcastInDim S100000x32 ![0, 1] bcast_S1x32_S100000x32_0_1 a : (⟨S100000x32, .f32⟩ : BufTy).Contents (Elt F)) : (⟨S100000x32, .f32⟩ : BufTy).Contents (Elt F))
    (constant S_ .f32 0x00000000#32) reducesTo_S100000x32_S100000_d1 h_S_

/-- A node vector gathered per edge. -/
def perEdge (s : (⟨S100000, .f32⟩ : BufTy).Contents (Elt F)) (i : (⟨S1600000, .i32⟩ : BufTy).Contents (Elt F)) :
    (⟨S1600000, .f32⟩ : BufTy).Contents (Elt F) :=
  Host.gather gather_S100000_S1600000x1_S1600000_n_0_n_n_0_1_1 s (idxCol i)

/-- The leaky rectifier of slope 0.2 on the edge scores. -/
def lrelu (s : (⟨S1600000, .f32⟩ : BufTy).Contents (Elt F)) : (⟨S1600000, .f32⟩ : BufTy).Contents (Elt F) :=
  select (cmpf .oge s ((broadcastInDim S1600000 ![] bcast_S_S1600000 : (⟨S_, .f32⟩ : BufTy).Contents (Elt F) → (⟨S1600000, .f32⟩ : BufTy).Contents (Elt F)) (constant S_ .f32 0x00000000#32)) : (⟨S1600000, .i1⟩ : BufTy).Contents (Elt F))
    s
    (mulf ((broadcastInDim S1600000 ![] bcast_S_S1600000 : (⟨S_, .f32⟩ : BufTy).Contents (Elt F) → (⟨S1600000, .f32⟩ : BufTy).Contents (Elt F)) (id (constant S_ .f32 0x3E4CCCCD#32))) s : (⟨S1600000, .f32⟩ : BufTy).Contents (Elt F))

/-- The global minimum of the edge values (from `+∞`). -/
def gmin (l : (⟨S1600000, .f32⟩ : BufTy).Contents (Elt F)) : (⟨S_, .f32⟩ : BufTy).Contents (Elt F) :=
  Host.reduce FloatOps.minimumf l (constant S_ .f32 0x7F800000#32) reducesTo_S1600000_S_d0 h_S_

/-- The global maximum of the edge values (from `−∞`). -/
def gmax (l : (⟨S1600000, .f32⟩ : BufTy).Contents (Elt F)) : (⟨S_, .f32⟩ : BufTy).Contents (Elt F) :=
  Host.reduce FloatOps.maximumf l (constant S_ .f32 0xFF800000#32) reducesTo_S1600000_S_d0 h_S_

/-- Min-max normalisation followed by the exponential. -/
def normExp (l : (⟨S1600000, .f32⟩ : BufTy).Contents (Elt F)) : (⟨S1600000, .f32⟩ : BufTy).Contents (Elt F) :=
  Host.exp (Host.divf
    (subf l ((broadcastInDim S1600000 ![] bcast_S_S1600000 : (⟨S_, .f32⟩ : BufTy).Contents (Elt F) → (⟨S1600000, .f32⟩ : BufTy).Contents (Elt F)) (gmin l)) : (⟨S1600000, .f32⟩ : BufTy).Contents (Elt F))
    ((broadcastInDim S1600000 ![] bcast_S_S1600000 : (⟨S_, .f32⟩ : BufTy).Contents (Elt F) → (⟨S1600000, .f32⟩ : BufTy).Contents (Elt F)) (subf (gmax l) (gmin l))) : (⟨S1600000, .f32⟩ : BufTy).Contents (Elt F))

/-- The attention weight of every edge from the two gathered halves. -/
def att (u v : (⟨S1600000, .f32⟩ : BufTy).Contents (Elt F)) : (⟨S1600000, .f32⟩ : BufTy).Contents (Elt F) :=
  normExp (lrelu (addf u v))

/-- The weights summed per destination row. -/
def rowsSum (a : (⟨S1600000, .f32⟩ : BufTy).Contents (Elt F)) (ri : (⟨S1600000, .i32⟩ : BufTy).Contents (Elt F)) :
    (⟨S100000, .f32⟩ : BufTy).Contents (Elt F) :=
  Host.scatterAdd scatter_S100000_S1600000x1_S1600000_n_0_0_1
    ((broadcastInDim S100000 ![] bcast_S_S100000 : (⟨S_, .f32⟩ : BufTy).Contents (Elt F) → (⟨S100000, .f32⟩ : BufTy).Contents (Elt F)) (constant S_ .f32 0x00000000#32))
    (broadcastInDim S1600000x1 ![0] bcast_S1600000_S1600000x1_0 ri : (⟨S1600000x1, .i32⟩ : BufTy).Contents (Elt F)) a

/-- The projected features gathered per edge (by source node). -/
def featPerEdge (Xp : (⟨S100000x32, .f32⟩ : BufTy).Contents (Elt F)) (ci : (⟨S1600000, .i32⟩ : BufTy).Contents (Elt F)) :
    (⟨S1600000x32, .f32⟩ : BufTy).Contents (Elt F) :=
  Host.gather gather_S100000x32_S1600000x1_S1600000x32_1_0_n_n_0_1_132 Xp (idxCol ci)

/-- Every edge's feature row scaled by the edge's weight. -/
def weighted (a : (⟨S1600000, .f32⟩ : BufTy).Contents (Elt F)) (xc : (⟨S1600000x32, .f32⟩ : BufTy).Contents (Elt F)) :
    (⟨S1600000x32, .f32⟩ : BufTy).Contents (Elt F) :=
  mulf (broadcastInDim S1600000x32 ![0, 1] bcast_S1600000x1_S1600000x32_0_1
      (broadcastInDim S1600000x1 ![0] bcast_S1600000_S1600000x1_0 a : (⟨S1600000x1, .f32⟩ : BufTy).Contents (Elt F)) : (⟨S1600000x32, .f32⟩ : BufTy).Contents (Elt F)) xc

/-- The weighted rows summed per destination row, divided by the row's weight total. -/
def aggregate (wt : (⟨S1600000x32, .f32⟩ : BufTy).Contents (Elt F)) (rs : (⟨S100000, .f32⟩ : BufTy).Contents (Elt F))
    (ri : (⟨S1600000, .i32⟩ : BufTy).Contents (Elt F)) : (⟨S100000x32, .f32⟩ : BufTy).Contents (Elt F) :=
  Host.divf
    (Host.scatterAdd scatter_S100000x32_S1600000x1_S1600000x32_1_0_0_1
      ((broadcastInDim S100000x32 ![] bcast_S_S100000x32 : (⟨S_, .f32⟩ : BufTy).Contents (Elt F) → (⟨S100000x32, .f32⟩ : BufTy).Contents (Elt F)) (constant S_ .f32 0x00000000#32))
      (broadcastInDim S1600000x1 ![0] bcast_S1600000_S1600000x1_0 ri : (⟨S1600000x1, .i32⟩ : BufTy).Contents (Elt F)) wt : (⟨S100000x32, .f32⟩ : BufTy).Contents (Elt F))
    (broadcastInDim S100000x32 ![0, 1] bcast_S100000x1_S100000x32_0_1
      (broadcastInDim S100000x1 ![0] bcast_S100000_S100000x1_0 rs : (⟨S100000x1, .f32⟩ : BufTy).Contents (Elt F)) : (⟨S100000x32, .f32⟩ : BufTy).Contents (Elt F))

/-- The whole result from the projected features and the attention weights. -/
def finish (Xp : (⟨S100000x32, .f32⟩ : BufTy).Contents (Elt F)) (a : (⟨S1600000, .f32⟩ : BufTy).Contents (Elt F))
    (ri ci : (⟨S1600000, .i32⟩ : BufTy).Contents (Elt F)) : (⟨S100000x32, .f32⟩ : BufTy).Contents (Elt F) :=
  aggregate (weighted a (featPerEdge Xp ci)) (rowsSum a ri) ri

/-- The result as one function of the six argument arrays. -/
def result (X : (⟨S100000x256, .f32⟩ : BufTy).Contents (Elt F)) (W : (⟨S256x32, .f32⟩ : BufTy).Contents (Elt F))
    (a0 a1 : (⟨S1x32, .f32⟩ : BufTy).Contents (Elt F)) (ri ci : (⟨S1600000, .i32⟩ : BufTy).Contents (Elt F)) :
    (⟨S100000x32, .f32⟩ : BufTy).Contents (Elt F) :=
  finish (proj X W) (att (perEdge (half (proj X W) a0) ri) (perEdge (half (proj X W) a1) ci)) ri ci

end Cert.ReferenceIdeal.Spec

end
-- ==== Proof.Stretches.lean ====
/-
  The idealized kernel program's three stretches of host operations, each read back as the reference's stages.

  Between the regions @main applies the same host operations as the reference: the two attention halves viewed as
  vectors and gathered per edge (then laid out as [12500, 128] for the second region); the edge weights laid flat
  again, summed per destination row, and the projected rows gathered per edge (the weights viewed as a column for
  the third region); at the end the weighted rows summed per destination row and divided by the row's weight total.
  Run from ANY buffer contents, each buffer a stretch writes ends at the composition of those operations over the
  contents it started from, and a buffer it does not write keeps its contents.
-/
import proofs.«145616_j62182536511744_1_alg».proof.Proof.Gen.KernelIdeal.Launch
import proofs.«145616_j62182536511744_1_alg».proof.Proof.Spec
import Idealize.ShloMosaic.Lib.StableHlo.Run

noncomputable section

namespace Cert.KernelIdeal.Stretches

open Cert.KernelIdeal Cert.KernelIdeal.Gen Idealize.ShloMosaic Idealize.ShloMosaic.TcCoe Idealize.SL.Sem Idealize.ShloMosaic.StableHlo
open Cert.ReferenceIdeal (Spec.perEdge Spec.idxCol Spec.rowsSum Spec.featPerEdge Spec.aggregate)

variable {F : FTy → Type} [FloatOps F]

attribute [local irreducible] Host.reduce Host.gather Host.scatterAdd Host.reduceAdd Host.divf Host.exp

/-! ## The first stretch (between regions 0 and 1) -/

set_option maxRecDepth 8192 in
set_option maxHeartbeats 4000000 in
/-- The first half, as a vector, gathered by destination node and laid out as [12500, 128]. -/
theorem s1_v17 (V : Valuation τ sig (Elt F)) :
    after hostOps1 V (Proc.devRef .tc main_v17)
      = shapeCast S12500x128 (Cert.ReferenceIdeal.Spec.perEdge (shapeCast S100000 (V (Proc.devRef .tc main_v0_1)) shapeCasts_S100000x1_S100000) (V (Proc.devRef .tc main_arg4))) shapeCasts_S1600000_S12500x128 := by
  after_results_simp
  simp only [Cert.ReferenceIdeal.Spec.perEdge, Cert.ReferenceIdeal.Spec.idxCol]
  rfl

set_option maxRecDepth 8192 in
set_option maxHeartbeats 4000000 in
/-- The second half, as a vector, gathered by source node and laid out as [12500, 128]. -/
theorem s1_v18 (V : Valuation τ sig (Elt F)) :
    after hostOps1 V (Proc.devRef .tc main_v18)
      = shapeCast S12500x128 (Cert.ReferenceIdeal.Spec.perEdge (shapeCast S100000 (V (Proc.devRef .tc main_v0_2)) shapeCasts_S100000x1_S100000) (V (Proc.devRef .tc main_arg5))) shapeCasts_S1600000_S12500x128 := by
  after_results_simp
  simp only [Cert.ReferenceIdeal.Spec.perEdge, Cert.ReferenceIdeal.Spec.idxCol]
  rfl

theorem s1_v0_0 (V : Valuation τ sig (Elt F)) : after hostOps1 V (Proc.devRef .tc main_v0_0) = V (Proc.devRef .tc main_v0_0) := by
  after_results_simp
theorem s1_arg4 (V : Valuation τ sig (Elt F)) : after hostOps1 V (Proc.devRef .tc main_arg4) = V (Proc.devRef .tc main_arg4) := by
  after_results_simp
theorem s1_arg5 (V : Valuation τ sig (Elt F)) : after hostOps1 V (Proc.devRef .tc main_arg5) = V (Proc.devRef .tc main_arg5) := by
  after_results_simp

/-! ## The second stretch (between regions 1 and 2) -/

/-- The edge weights laid flat again. -/
abbrev flat (V : Valuation τ sig (Elt F)) : (⟨S1600000, .f32⟩ : BufTy).Contents (Elt F) :=
  shapeCast S1600000 (V (Proc.devRef .tc main_v19)) shapeCasts_S12500x128_S1600000

set_option maxRecDepth 8192 in
set_option maxHeartbeats 4000000 in
/-- The flat weights viewed as a column. -/
theorem s2_v31 (V : Valuation τ sig (Elt F)) :
    after hostOps2 V (Proc.devRef .tc main_v31) = shapeCast S1600000x1 (flat V) shapeCasts_S1600000_S1600000x1 := by
  after_results_simp
  rfl

set_option maxRecDepth 8192 in
set_option maxHeartbeats 4000000 in
/-- The projected rows gathered by source node. -/
theorem s2_v30 (V : Valuation τ sig (Elt F)) :
    after hostOps2 V (Proc.devRef .tc main_v30)
      = Cert.ReferenceIdeal.Spec.featPerEdge (V (Proc.devRef .tc main_v0_0)) (V (Proc.devRef .tc main_arg5)) := by
  after_results_simp
  simp only [Cert.ReferenceIdeal.Spec.featPerEdge, Cert.ReferenceIdeal.Spec.idxCol]
  rfl

set_option maxRecDepth 8192 in
set_option maxHeartbeats 4000000 in
/-- The flat weights summed per destination row. -/
theorem s2_v23 (V : Valuation τ sig (Elt F)) :
    after hostOps2 V (Proc.devRef .tc main_v23)
      = Cert.ReferenceIdeal.Spec.rowsSum (flat V) (V (Proc.devRef .tc main_arg4)) := by
  after_results_simp
  simp only [Cert.ReferenceIdeal.Spec.rowsSum]
  rfl

theorem s2_arg4 (V : Valuation τ sig (Elt F)) : after hostOps2 V (Proc.devRef .tc main_arg4) = V (Proc.devRef .tc main_arg4) := by
  after_results_simp

/-! ## The last stretch (after region 2) -/

set_option maxRecDepth 8192 in
set_option maxHeartbeats 4000000 in
/-- The weighted rows summed per destination row, divided by the row's weight total. -/
theorem s3_v38 (V : Valuation τ sig (Elt F)) :
    after hostOps3 V (Proc.devRef .tc main_v38)
      = Cert.ReferenceIdeal.Spec.aggregate (V (Proc.devRef .tc main_v32)) (V (Proc.devRef .tc main_v23)) (V (Proc.devRef .tc main_arg4)) := by
  after_results_simp
  simp only [Cert.ReferenceIdeal.Spec.aggregate]
  rfl

end Cert.KernelIdeal.Stretches

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.Reg0Math.lean ====
/-
  The first region's values and the reference's first stages, read at an index, at the extended reals.

  Inside a block the body forms the product of a [5000, 256] block with the [256, 32] weights — entry (p, q) is
  the sum over k of X(p, k) · W(k, q), the narrowing of the operands being the identity here —, and for a row
  vector a the row sums of that product weighted by a — entry p is the sum over q of P(p, q) · a(0, q) —, written
  as a column.  The reference's projection is the same sum over the whole arrays, and its attention half the same
  weighted row sum from a zero initial value.  A node vector and the column [100000, 1] holding it are each
  other's reshape.
-/
import proofs.«145616_j62182536511744_1_alg».proof.Proof.Gen.KernelIdeal.Skeleton
import proofs.«145616_j62182536511744_1_alg».proof.Proof.Spec
import proofs.«145616_j62182536511744_1_alg».proof.Proof.LibReadAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.SL.Sem Idealize.ShloMosaic.ValueIdx

/-! ## The body's three values read at an index -/

/-- The body's product at (p, q): the sum over the contracted coordinate of the entries' products (the narrowing
    of the operands is the identity at the extended reals). -/
theorem pay1_apply (x0 : FVec Ideal S5000x256 .f32) (x1 : FVec Ideal S256x32 .f32) (p : Fin 5000) (q : Fin 32) :
    k0_pay1 x0 x1 (ix2 p q) = ∑ k : Fin 256, x0 (ix2 p k) * x1 (ix2 k q) := by
  unfold k0_pay1
  exact Cert.ReadAt.matmul_plain_zero_apply none (truncf .bf16 x0 bitsLt_bf16_f32) (truncf .bf16 x1 bitsLt_bf16_f32) p q

/-- The body's weighted row sum at (p, 0): the sum over the lanes of the product's entry times the row vector's. -/
theorem pay2_apply (x0 : FVec Ideal S5000x256 .f32) (x1 : FVec Ideal S256x32 .f32) (x2 : FVec Ideal S1x32 .f32)
    (p : Fin 5000) (u : Fin 1) :
    k0_pay2 x0 x1 x2 (ix2 p u) = ∑ q : Fin 32, (∑ k : Fin 256, x0 (ix2 p k) * x1 (ix2 k q)) * x2 (ix2 (0 : Fin 1) q) := by
  unfold k0_pay2
  rw [Cert.ReadAt.shapeCast_a_a1_apply]
  refine (Cert.ReadAt.laneSum_apply _ _ _ _ _ p).trans ?_
  refine Finset.sum_congr rfl fun q _ => ?_
  rw [mulf_apply, pay1_apply, broadcastTo_1b_ab_apply]

/-- The second weighted row sum is the same function of its row vector. -/
theorem pay3_apply (x0 : FVec Ideal S5000x256 .f32) (x1 : FVec Ideal S256x32 .f32) (x3 : FVec Ideal S1x32 .f32)
    (p : Fin 5000) (u : Fin 1) :
    k0_pay3 x0 x1 x3 (ix2 p u) = ∑ q : Fin 32, (∑ k : Fin 256, x0 (ix2 p k) * x1 (ix2 k q)) * x3 (ix2 (0 : Fin 1) q) :=
  pay2_apply x0 x1 x3 p u

/-! ## The reference's stages read at an index -/

/-- A plain host product `[m, k] × [k, n]` at (i, j): the sum over the contracted coordinate of the products of the entries. -/
theorem dotGeneral_plain_apply {m k n : ℕ} {φ₁ φ₂ : FTy} (prec : Option ContractPrecision) (sched : HostSchedule)
    (A : FVec Ideal ⟨2, ![m, k]⟩ φ₁) (B : FVec Ideal ⟨2, ![k, n]⟩ φ₂) (i : Fin m) (j : Fin n) :
    FloatOps.dotGeneral (DotDims.plain m k n) prec sched A B (ix2 i j) = ∑ c : Fin k, A (ix2 i c) * B (ix2 c j) := by
  rw [Ideal.dotGeneral_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

/-- The reference's projection at (i, q). -/
theorem proj_apply (X : FVec Ideal S100000x256 .f32) (W : FVec Ideal S256x32 .f32) (i : Fin 100000) (q : Fin 32) :
    Cert.ReferenceIdeal.Spec.proj (F := Ideal) X W (ix2 i q) = ∑ k : Fin 256, X (ix2 i k) * W (ix2 k q) := by
  unfold Cert.ReferenceIdeal.Spec.proj
  exact dotGeneral_plain_apply none .single X W i q

/-- The rows of a `[100000, 32]` array reduce, along the lanes, to a vector of 100000. -/
theorem reduces_rows : Shape.Reduces (⟨2, ![100000, 32]⟩ : Shape) [1] ⟨1, ![100000]⟩ := by decide

/-- The reference's attention half at node i: the sum over the lanes of the projected entry times the row vector's
    (the initial value is zero). -/
theorem half_apply (Xp : FVec Ideal S100000x32 .f32) (a : FVec Ideal S1x32 .f32) (i : Fin 100000) :
    Cert.ReferenceIdeal.Spec.half (F := Ideal) Xp a (ix1 i) = ∑ q : Fin 32, Xp (ix2 i q) * a (ix2 (0 : Fin 1) q) := by
  unfold Cert.ReferenceIdeal.Spec.half Host.reduceAdd
  rw [Ideal.hostReduceAdd_def]
  refine (Ideal.hostReduceAdd_single _ reduces_rows _ _ (ix1 i)).trans ?_
  rw [constant_apply, Ideal.ofBits_zero_f32, zero_add]
  refine Finset.sum_congr rfl fun (q : Fin 32) _ => ?_
  rw [show reduces_rows.lift (ix1 i) q = ix2 i q from Cert.ReadAt.lift_axis1 reduces_rows i q]
  change Xp (ix2 i q) * _ = Xp (ix2 i q) * _
  refine congrArg (Xp (ix2 i q) * ·) ?_
  refine broadcastInDim_apply ![0, 1] _ a (ix2 i q) (ix2 (0 : Fin 1) q) fun ax => ?_
  match ax with
  | ⟨0, _⟩ => rfl
  | ⟨1, _⟩ => rfl

/-! ## A node vector as a column -/

/-- A node vector as a column `[100000, 1]`: entry (i, 0) is the vector's entry i. -/
def col (s : FVec Ideal S100000 .f32) : FVec Ideal S100000x1 .f32 := fun i => s (ix1 (⟨(i 0).val, (i 0).isLt⟩ : Fin 100000))

/-- The column at (r, u). -/
theorem col_apply (s : FVec Ideal S100000 .f32) (r : Fin 100000) (u : Fin 1) : col s (ix2 r u) = s (ix1 r) := rfl

/-- The column flattened is the vector again. -/
theorem shapeCast_col (s : FVec Ideal S100000 .f32) :
    shapeCast S100000 (col s) Cert.KernelIdeal.Facts₀.shapeCasts_S100000x1_S100000 = s := by
  funext j
  obtain ⟨i, rfl⟩ : ∃ i : Fin 100000, j = ix1 i := ⟨j 0, eq_ix1 j⟩
  refine (shapeCast_apply (col s) _ (ix1 i) (ix2 i (0 : Fin 1)) ?_).trans (col_apply s i 0)
  rw [Shape.rowMajor_val_two, Shape.rowMajor_val_one]
  show i.val * 1 + 0 = i.val
  omega

end Cert.KernelIdeal.Reg0

end
-- ==== Proof.Reg0.lean ====
/-
  The first region: the node features projected, and the two attention halves per node.

  The grid has 20 points; point t holds rows 5000·t … 5000·t + 4999 of the features [100000, 256], and every
  point holds the whole weight matrix [256, 32] and the two row vectors [1, 32].  What the body leaves in a
  block is the product of the features' block with the weights and, per row vector, the weighted row sums of
  that product as a column; read at an index these are the reference's projection and halves at row 5000·t + p.
  So what point t writes back is block t of ONE function of the whole arrays, the blocks tile the three result
  arrays, and the three arrays end at the reference's projection and its two halves (a half as a column).
-/
import proofs.«145616_j62182536511744_1_alg».proof.Proof.Gen.KernelIdeal.Frame
import proofs.«145616_j62182536511744_1_alg».proof.Proof.Spec
import proofs.«145616_j62182536511744_1_alg».proof.Proof.Reg0Math
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The windows' blocks over the grid -/

/-- The printed index maps over the grid: the features' window and the three result windows have block index
    (t, 0), the weights' and the two row vectors' windows (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- The features' block at point t, at (p, k): the features at row 5000·t + p. -/
theorem blk0_apply (c : Dev nD) (t : Fin cfg0.N) (p : Fin 5000) (k : Fin 256) (r : Fin 100000)
    (hr : r.val = t.val * 5000 + p.val) :
    iblk0 V c 0 t (ix2 p k) = V c (Pipeline.arrRef spec0 0) (ix2 r k) := by
  obtain ⟨e00, e01, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The weights' block at every point is the whole matrix. -/
theorem blk1_apply (c : Dev nD) (t : Fin cfg0.N) (k : Fin 256) (q : Fin 32) :
    iblk0 V c 1 t (ix2 k q) = V c (Pipeline.arrRef spec0 1) (ix2 k q) := by
  obtain ⟨-, -, e10, e11, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 256 + 1 * k.val = k.val; omega
  | ⟨1, _⟩ => show win0_1.index t (1 : Fin 2) * 32 + 1 * q.val = q.val; omega

/-- The first row vector's block at every point is the whole vector. -/
theorem blk2_apply (c : Dev nD) (t : Fin cfg0.N) (q : Fin 32) :
    iblk0 V c 2 t (ix2 (0 : Fin 1) q) = V c (Pipeline.arrRef spec0 2) (ix2 (0 : Fin 1) q) := by
  obtain ⟨-, -, -, -, e20, e21, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; omega
  | ⟨1, _⟩ => show win0_2.index t (1 : Fin 2) * 32 + 1 * q.val = q.val; omega

/-- The second row vector's block at every point is the whole vector. -/
theorem blk3_apply (c : Dev nD) (t : Fin cfg0.N) (q : Fin 32) :
    iblk0 V c 3 t (ix2 (0 : Fin 1) q) = V c (Pipeline.arrRef spec0 3) (ix2 (0 : Fin 1) q) := by
  obtain ⟨-, -, -, -, -, -, e30, e31, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; omega
  | ⟨1, _⟩ => show win0_3.index t (1 : Fin 2) * 32 + 1 * q.val = q.val; omega

/-- Where point t's block of the projection sits in the result array: row 5000·t + p. -/
theorem emb4 (t : Fin cfg0.N) (p : Fin 5000) (q : Fin 32) (r : Fin 100000) (hr : r.val = t.val * 5000 + p.val) :
    ((cfg0.win 4).blk t).view.emb (ix2 p q) = ix2 r q := by
  obtain ⟨-, -, -, -, -, -, -, -, e40, e41, -⟩ := idx_facts t
  funext a
  apply Fin.ext
  match a with
  | ⟨0, _⟩ => show win0_4.index t (0 : Fin 2) * 5000 + 1 * p.val = r.val; omega
  | ⟨1, _⟩ => show win0_4.index t (1 : Fin 2) * 32 + 1 * q.val = q.val; omega

/-- Where point t's block of the first half sits in its column. -/
theorem emb5 (t : Fin cfg0.N) (p : Fin 5000) (u : Fin 1) (r : Fin 100000) (hr : r.val = t.val * 5000 + p.val) :
    ((cfg0.win 5).blk t).view.emb (ix2 p u) = ix2 r u := by
  obtain ⟨-, -, -, -, -, -, -, -, -, -, e50, e51, -⟩ := idx_facts t
  funext a
  apply Fin.ext
  match a with
  | ⟨0, _⟩ => show win0_5.index t (0 : Fin 2) * 5000 + 1 * p.val = r.val; omega
  | ⟨1, _⟩ => show win0_5.index t (1 : Fin 2) * 1 + 1 * u.val = u.val; omega

/-- Where point t's block of the second half sits in its column. -/
theorem emb6 (t : Fin cfg0.N) (p : Fin 5000) (u : Fin 1) (r : Fin 100000) (hr : r.val = t.val * 5000 + p.val) :
    ((cfg0.win 6).blk t).view.emb (ix2 p u) = ix2 r u := by
  obtain ⟨-, -, -, -, -, -, -, -, -, -, -, -, e60, e61⟩ := idx_facts t
  funext a
  apply Fin.ext
  match a with
  | ⟨0, _⟩ => show win0_6.index t (0 : Fin 2) * 5000 + 1 * p.val = r.val; omega
  | ⟨1, _⟩ => show win0_6.index t (1 : Fin 2) * 1 + 1 * u.val = u.val; omega

/-- The row of the whole arrays a block row is: 5000·t + p is below 100000. -/
theorem row_exists (t : Fin cfg0.N) (p : Fin 5000) : ∃ r : Fin 100000, r.val = t.val * 5000 + p.val := by
  have hN : cfg0.N = 20 := N_0
  have ht : t.val < 20 := hN ▸ t.isLt
  have hp : p.val < 5000 := p.isLt
  exact ⟨⟨t.val * 5000 + p.val, by omega⟩, rfl⟩

/-! ## What each point writes back -/

/-- What point t writes back to the projection's window is block t of the reference's projection. -/
theorem flushed_eq4 (c : Dev nD) (t : Fin cfg0.N) :
    (dat0 (F := Ideal) V c).flushed 4 t
      = ((cfg0.win 4).blk t).view.read (Elt Ideal) (Cert.ReferenceIdeal.Spec.proj (F := Ideal) (V c (Pipeline.arrRef spec0 0)) (V c (Pipeline.arrRef spec0 1))) := by
  show (cfg0.win 4).cut (grid0.coords t) ((dat0 V c).after 4 t) = _
  rw [after0_4]
  unfold out0_4
  rw [View.canon_unit_zero hz]
  simp only [View.ld_unit_zero (S := S5000x256) hz, View.ld_unit_zero (S := S256x32) hz]
  funext j
  obtain ⟨p, q, rfl⟩ : ∃ (p : Fin 5000) (q : Fin 32), j = ix2 p q := ⟨j 0, j 1, eq_ix2 j⟩
  obtain ⟨r, hr⟩ := row_exists t p
  refine (pay1_apply (iblk0 V c 0 t) (iblk0 V c 1 t) p q).trans ?_
  rw [View.read_apply]
  show _ = Cert.ReferenceIdeal.Spec.proj (F := Ideal) (V c (Pipeline.arrRef spec0 0)) (V c (Pipeline.arrRef spec0 1)) (((cfg0.win 4).blk t).view.emb (ix2 p q))
  rw [emb4 t p q r hr, proj_apply]
  exact Finset.sum_congr rfl fun k _ => by rw [blk0_apply V c t p k r hr, blk1_apply V c t k q]

/-- What point t writes back to the first half's window is block t of the reference's first half, as a column. -/
theorem flushed_eq5 (c : Dev nD) (t : Fin cfg0.N) :
    (dat0 (F := Ideal) V c).flushed 5 t
      = ((cfg0.win 5).blk t).view.read (Elt Ideal) (col (Cert.ReferenceIdeal.Spec.half (F := Ideal) (Cert.ReferenceIdeal.Spec.proj (F := Ideal) (V c (Pipeline.arrRef spec0 0)) (V c (Pipeline.arrRef spec0 1))) (V c (Pipeline.arrRef spec0 2)))) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x32) hz, View.ld_unit_zero (S := S1x32) hz]
  funext j
  obtain ⟨p, u, rfl⟩ : ∃ (p : Fin 5000) (u : Fin 1), j = ix2 p u := ⟨j 0, j 1, eq_ix2 j⟩
  obtain ⟨r, hr⟩ := row_exists t p
  refine (pay2_apply (iblk0 V c 0 t) (iblk0 V c 1 t) (iblk0 V c 2 t) p u).trans ?_
  rw [View.read_apply]
  show _ = col (Cert.ReferenceIdeal.Spec.half (F := Ideal) (Cert.ReferenceIdeal.Spec.proj (F := Ideal) (V c (Pipeline.arrRef spec0 0)) (V c (Pipeline.arrRef spec0 1))) (V c (Pipeline.arrRef spec0 2))) (((cfg0.win 5).blk t).view.emb (ix2 p u))
  rw [emb5 t p u r hr, col_apply, half_apply]
  refine Finset.sum_congr rfl fun q _ => ?_
  rw [proj_apply, blk2_apply V c t q]
  exact congrArg (· * _) (Finset.sum_congr rfl fun k _ => by rw [blk0_apply V c t p k r hr, blk1_apply V c t k q])

/-- What point t writes back to the second half's window is block t of the reference's second half, as a column. -/
theorem flushed_eq6 (c : Dev nD) (t : Fin cfg0.N) :
    (dat0 (F := Ideal) V c).flushed 6 t
      = ((cfg0.win 6).blk t).view.read (Elt Ideal) (col (Cert.ReferenceIdeal.Spec.half (F := Ideal) (Cert.ReferenceIdeal.Spec.proj (F := Ideal) (V c (Pipeline.arrRef spec0 0)) (V c (Pipeline.arrRef spec0 1))) (V c (Pipeline.arrRef spec0 3)))) := by
  show (cfg0.win 6).cut (grid0.coords t) ((dat0 V c).after 6 t) = _
  rw [after0_6]
  unfold out0_6
  rw [View.canon_unit_zero hz]
  simp only [View.ld_unit_zero (S := S5000x256) hz, View.ld_unit_zero (S := S256x32) hz, View.ld_unit_zero (S := S1x32) hz]
  funext j
  obtain ⟨p, u, rfl⟩ : ∃ (p : Fin 5000) (u : Fin 1), j = ix2 p u := ⟨j 0, j 1, eq_ix2 j⟩
  obtain ⟨r, hr⟩ := row_exists t p
  refine (pay3_apply (iblk0 V c 0 t) (iblk0 V c 1 t) (iblk0 V c 3 t) p u).trans ?_
  rw [View.read_apply]
  show _ = col (Cert.ReferenceIdeal.Spec.half (F := Ideal) (Cert.ReferenceIdeal.Spec.proj (F := Ideal) (V c (Pipeline.arrRef spec0 0)) (V c (Pipeline.arrRef spec0 1))) (V c (Pipeline.arrRef spec0 3))) (((cfg0.win 6).blk t).view.emb (ix2 p u))
  rw [emb6 t p u r hr, col_apply, half_apply]
  refine Finset.sum_congr rfl fun q _ => ?_
  rw [proj_apply, blk3_apply V c t q]
  exact congrArg (· * _) (Finset.sum_congr rfl fun k _ => by rw [blk0_apply V c t p k r hr, blk1_apply V c t k q])

/-! ## The blocks tile the result arrays -/

/-- An index of the projection's array is in point t's block iff each coordinate is in the block's range on its axis. -/
theorem mem_blk4 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v0_0).slice (win0_4.rect t)).set ↔ _
  rw [View.set_slice_whole, Rect.mem_set_unit]
  exact Iff.rfl

/-- The same for the first half's column. -/
theorem mem_blk5 (t : Fin cfg0.N) (i : S100000x1.Idx) :
    i ∈ ((cfg0.win 5).blk t).view.set ↔ ∀ a : Fin 2, win0_5.index t a * S5000x1.size a ≤ (i a).val ∧ (i a).val < win0_5.index t a * S5000x1.size a + S5000x1.size a := by
  show i ∈ ((View.whole main_v0_1).slice (win0_5.rect t)).set ↔ _
  rw [View.set_slice_whole, Rect.mem_set_unit]
  exact Iff.rfl

/-- The same for the second half's column. -/
theorem mem_blk6 (t : Fin cfg0.N) (i : S100000x1.Idx) :
    i ∈ ((cfg0.win 6).blk t).view.set ↔ ∀ a : Fin 2, win0_6.index t a * S5000x1.size a ≤ (i a).val ∧ (i a).val < win0_6.index t a * S5000x1.size a + S5000x1.size a := by
  show i ∈ ((View.whole main_v0_2).slice (win0_6.rect t)).set ↔ _
  rw [View.set_slice_whole, Rect.mem_set_unit]
  exact Iff.rfl

/-- The blocks tile the projection's array: row r lies in the block of point r / 5000. -/
theorem cover4 (i : S100000x32.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 32 := (i 1).isLt
  refine ⟨⟨(i 0).val / 5000, by rw [hN]; omega⟩, flush0_4 _, ?_⟩
  rw [mem_blk4]
  obtain ⟨-, -, -, -, -, -, -, -, e40, e41, -⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 32 ≤ (i 1).val ∧ (i 1).val < win0_4.index _ (1 : Fin 2) * 32 + 32
    rw [e41]; omega

/-- The blocks tile the first half's column. -/
theorem cover5 (i : S100000x1.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 1 := (i 1).isLt
  refine ⟨⟨(i 0).val / 5000, by rw [hN]; omega⟩, flush0_5 _, ?_⟩
  rw [mem_blk5]
  obtain ⟨-, -, -, -, -, -, -, -, -, -, e50, e51, -⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 1 ≤ (i 1).val ∧ (i 1).val < win0_5.index _ (1 : Fin 2) * 1 + 1
    rw [e51]; omega

/-- The blocks tile the second half's column. -/
theorem cover6 (i : S100000x1.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 1 := (i 1).isLt
  refine ⟨⟨(i 0).val / 5000, by rw [hN]; omega⟩, flush0_6 _, ?_⟩
  rw [mem_blk6]
  obtain ⟨-, -, -, -, -, -, -, -, -, -, -, -, e60, e61⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 1 ≤ (i 1).val ∧ (i 1).val < win0_6.index _ (1 : Fin 2) * 1 + 1
    rw [e61]; omega

/-! ## The three result arrays after the region -/

/-- The projection's array after the region is the reference's projection of the features by the weights. -/
theorem final4 (c : Dev nD) :
    (dat0 (F := Ideal) V c).arrAt 4 cfg0.N = Cert.ReferenceIdeal.Spec.proj (F := Ideal) (V c (Pipeline.arrRef spec0 0)) (V c (Pipeline.arrRef spec0 1)) :=
  (dat0 V c).arrAt_eq_of_cover 4 _ (fun t _ => flushed_eq4 V c t) cover4

/-- The first half's array after the region is the reference's first attention half, as a column. -/
theorem final5 (c : Dev nD) :
    (dat0 (F := Ideal) V c).arrAt 5 cfg0.N = col (Cert.ReferenceIdeal.Spec.half (F := Ideal) (Cert.ReferenceIdeal.Spec.proj (F := Ideal) (V c (Pipeline.arrRef spec0 0)) (V c (Pipeline.arrRef spec0 1))) (V c (Pipeline.arrRef spec0 2))) :=
  (dat0 V c).arrAt_eq_of_cover 5 _ (fun t _ => flushed_eq5 V c t) cover5

/-- The second half's array after the region is the reference's second attention half, as a column. -/
theorem final6 (c : Dev nD) :
    (dat0 (F := Ideal) V c).arrAt 6 cfg0.N = col (Cert.ReferenceIdeal.Spec.half (F := Ideal) (Cert.ReferenceIdeal.Spec.proj (F := Ideal) (V c (Pipeline.arrRef spec0 0)) (V c (Pipeline.arrRef spec0 1))) (V c (Pipeline.arrRef spec0 3))) :=
  (dat0 V c).arrAt_eq_of_cover 6 _ (fun t _ => flushed_eq6 V c t) cover6

end Cert.KernelIdeal.Reg0

end
-- ==== Proof.Reg1.lean ====
/-
  The second region: the edge-score chain on the two gathered halves laid out as [12500, 128].

  The grid is a single point and every window's block is its whole array, so the one write-back is the body's
  result on the two whole input arrays: the result array ends as the body's pure function of them.
-/
import proofs.«145616_j62182536511744_1_alg».proof.Proof.Gen.KernelIdeal.Frame

import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed index maps at the grid's point: every window's block index is (0, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

/-- The first input window's one block is its whole array. -/
theorem iblk_0 (c : Dev nD) (t : Fin cfg1.N) :
    (iblk1 V c 0 t : S12500x128.Idx → EReal) = V c (Pipeline.arrRef spec1 0) := by
  obtain ⟨e0, e1, e2, e3, e4, e5⟩ := idx_facts t
  funext y
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 12500 + 1 * (y 0).val = (y 0).val; omega
  | ⟨1, _⟩ => show win1_0.index t (1 : Fin 2) * 128 + 1 * (y 1).val = (y 1).val; omega

/-- The second input window's one block is its whole array. -/
theorem iblk_1 (c : Dev nD) (t : Fin cfg1.N) :
    (iblk1 V c 1 t : S12500x128.Idx → EReal) = V c (Pipeline.arrRef spec1 1) := by
  obtain ⟨e0, e1, e2, e3, e4, e5⟩ := idx_facts t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 12500 + 1 * (y 0).val = (y 0).val; omega
  | ⟨1, _⟩ => show win1_1.index t (1 : Fin 2) * 128 + 1 * (y 1).val = (y 1).val; omega

/-- What the one point writes back is the (whole-array) block of the body's result on the two whole inputs. -/
theorem flushed_eq (c : Dev nD) (t : Fin cfg1.N) :
    (dat1 (F := Ideal) V c).flushed 2 t
      = ((cfg1.win 2).blk t).view.read (Elt Ideal) (k1_pay1 (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S12500x128) hz]
  rw [iblk_0 V c t, iblk_1 V c t]
  generalize k1_pay1 (F := Ideal) (V c (Pipeline.arrRef spec1 0)) (V c (Pipeline.arrRef spec1 1)) = Z
  obtain ⟨e0, e1, e2, e3, e4, e5⟩ := idx_facts t
  funext y
  obtain ⟨p, q, rfl⟩ : ∃ (p : Fin 12500) (q : Fin 128), y = ix2 p q := ⟨y 0, y 1, eq_ix2 y⟩
  rw [View.read_apply, cast_eq]
  refine congrArg Z ?_
  funext a
  apply Fin.ext
  match a with
  | ⟨0, _⟩ => show p.val = win1_2.index t (0 : Fin 2) * 12500 + 1 * p.val; omega
  | ⟨1, _⟩ => show q.val = win1_2.index t (1 : Fin 2) * 128 + 1 * q.val; omega

/-- An index of the result array is in the point's block iff each coordinate is in the block's range on its axis. -/
theorem mem_blk (t : Fin cfg1.N) (i : S12500x128.Idx) :
    i ∈ ((cfg1.win 2).blk t).view.set ↔ ∀ a : Fin 2, win1_2.index t a * S12500x128.size a ≤ (i a).val ∧ (i a).val < win1_2.index t a * S12500x128.size a + S12500x128.size a := by
  show i ∈ ((View.whole main_v19).slice (win1_2.rect t)).set ↔ _
  rw [View.set_slice_whole, Rect.mem_set_unit]
  exact Iff.rfl

/-- The one block is the whole result array. -/
theorem cover (i : S12500x128.Idx) : ∃ t : Fin cfg1.N, (cfg1.win 2).flush t = true ∧ i ∈ ((cfg1.win 2).blk t).view.set := by
  have hi0 : (i 0).val < 12500 := (i 0).isLt
  have hi1 : (i 1).val < 128 := (i 1).isLt
  refine ⟨t1_0, flush1_2 _, ?_⟩
  rw [mem_blk]
  obtain ⟨e0, e1, e2, e3, e4, e5⟩ := idx_facts t1_0
  intro a
  match a with
  | ⟨0, _⟩ =>
    show win1_2.index _ (0 : Fin 2) * 12500 ≤ (i 0).val ∧ (i 0).val < win1_2.index _ (0 : Fin 2) * 12500 + 12500
    rw [e4]; omega
  | ⟨1, _⟩ =>
    show win1_2.index _ (1 : Fin 2) * 128 ≤ (i 1).val ∧ (i 1).val < win1_2.index _ (1 : Fin 2) * 128 + 128
    rw [e5]; omega

/-- The result array after the region: the body's function of the two whole input arrays. -/
theorem final (c : Dev nD) :
    (dat1 (F := Ideal) V c).arrAt 2 cfg1.N = k1_pay1 (F := Ideal) (V c (Pipeline.arrRef spec1 0)) (V c (Pipeline.arrRef spec1 1)) :=
  (dat1 V c).arrAt_eq_of_cover 2 _ (fun t _ => flushed_eq V c t) cover

end Cert.KernelIdeal.Reg1

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Reg2.lean ====
/-
  The third region: every edge's gathered feature row scaled by the edge's weight.

  The grid has 200 points; point t holds rows 8000·t … 8000·t + 7999 of the weight column [1600000, 1], of the
  gathered features [1600000, 32] and of the product.  Inside a block the body multiplies entry (p, q) of the
  features by entry (p, 0) of the column, so what point t writes back is block t of ONE function of the two whole
  arrays — the column broadcast along the 32 lanes times the features — and the blocks tile the result array.
-/
import proofs.«145616_j62182536511744_1_alg».proof.Proof.Gen.KernelIdeal.Frame
import proofs.«145616_j62182536511744_1_alg».proof.Proof.Spec
import proofs.«145616_j62182536511744_1_alg».proof.Proof.LibColumnBroadcast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's product at (p, q): the column's entry of row p times the features' entry. -/
theorem pay_apply (x0 : FVec Ideal S8000x1 .f32) (x1 : FVec Ideal S8000x32 .f32) (p : Fin 8000) (q : Fin 32) :
    k2_pay1 x0 x1 (ix2 p q) = x0 (ix2 p (0 : Fin 1)) * x1 (ix2 p q) := by
  unfold k2_pay1
  rw [mulf_apply, shapeCast_self, shapeCast_self, Cert.LibColumnBroadcast.broadcastTo_column_apply]

/-- The whole-array function: the weight column broadcast along the lanes, times the features. -/
def G (a : FVec Ideal S1600000x1 .f32) (x : FVec Ideal S1600000x32 .f32) : FVec Ideal S1600000x32 .f32 :=
  mulf (F := Ideal) (broadcastInDim S1600000x32 ![0, 1] Cert.ReferenceIdeal.Facts₀.bcast_S1600000x1_S1600000x32_0_1 a) x

/-- That function at (r, q). -/
theorem G_apply (a : FVec Ideal S1600000x1 .f32) (x : FVec Ideal S1600000x32 .f32)
    (r : Fin 1600000) (q : Fin 32) : G a x (ix2 r q) = a (ix2 r (0 : Fin 1)) * x (ix2 r q) := by
  unfold G
  rw [mulf_apply]
  refine congrArg (· * x (ix2 r q)) ?_
  refine broadcastInDim_apply ![0, 1] _ a (ix2 r q) (ix2 r (0 : Fin 1)) fun ax => ?_
  match ax with
  | ⟨0, _⟩ => rfl
  | ⟨1, _⟩ => rfl

/-- The printed index maps over the grid: every window's block index is (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the whole-array product. -/
theorem flushed_eq (c : Dev nD) (t : Fin cfg2.N) :
    (dat2 (F := Ideal) V c).flushed 2 t
      = ((cfg2.win 2).blk t).view.read (Elt Ideal) (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S8000x1) hz, View.ld_unit_zero (S := S8000x32) hz]
  obtain ⟨e0, e1, e2, e3, e4, e5⟩ := idx_facts t
  have hN : cfg2.N = 200 := N_2
  have ht : t.val < 200 := hN ▸ t.isLt
  funext j
  obtain ⟨p, q, rfl⟩ : ∃ (p : Fin 8000) (q : Fin 32), j = ix2 p q := ⟨j 0, j 1, eq_ix2 j⟩
  have hp : p.val < 8000 := p.isLt
  refine (pay_apply (iblk2 V c 0 t) (iblk2 V c 1 t) p q).trans ?_
  obtain ⟨r, hr⟩ : ∃ r : Fin 1600000, r.val = t.val * 8000 + p.val := ⟨⟨t.val * 8000 + p.val, by omega⟩, rfl⟩
  have b0 : iblk2 V c 0 t (ix2 p (0 : Fin 1)) = V c (Pipeline.arrRef spec2 0) (ix2 r (0 : Fin 1)) := by
    unfold iblk2
    rw [View.read_apply]
    show V c (Pipeline.arrRef spec2 0) _ = V c (Pipeline.arrRef spec2 0) _
    congr 1
    funext a
    apply Fin.ext
    match a with
    | ⟨0, _⟩ => show win2_0.index t (0 : Fin 2) * 8000 + 1 * p.val = r.val; omega
    | ⟨1, _⟩ => show win2_0.index t (1 : Fin 2) * 1 + 1 * 0 = 0; omega
  have b1 : iblk2 V c 1 t (ix2 p q) = V c (Pipeline.arrRef spec2 1) (ix2 r q) := by
    unfold iblk2
    rw [View.read_apply]
    show V c (Pipeline.arrRef spec2 1) _ = V c (Pipeline.arrRef spec2 1) _
    congr 1
    funext a
    apply Fin.ext
    match a with
    | ⟨0, _⟩ => show win2_1.index t (0 : Fin 2) * 8000 + 1 * p.val = r.val; omega
    | ⟨1, _⟩ => show win2_1.index t (1 : Fin 2) * 32 + 1 * q.val = q.val; omega
  have b2 : ((cfg2.win 2).blk t).view.emb (ix2 p q) = ix2 r q := by
    funext a
    apply Fin.ext
    match a with
    | ⟨0, _⟩ => show win2_2.index t (0 : Fin 2) * 8000 + 1 * p.val = r.val; omega
    | ⟨1, _⟩ => show win2_2.index t (1 : Fin 2) * 32 + 1 * q.val = q.val; omega
  rw [b0, b1, View.read_apply]
  show _ = G (V c (Pipeline.arrRef spec2 0)) (V c (Pipeline.arrRef spec2 1)) (((cfg2.win 2).blk t).view.emb (ix2 p q))
  rw [b2, G_apply]

/-- An index of the result array is in point t's block iff each coordinate is in the block's range on its axis. -/
theorem mem_blk (t : Fin cfg2.N) (i : S1600000x32.Idx) :
    i ∈ ((cfg2.win 2).blk t).view.set ↔ ∀ a : Fin 2, win2_2.index t a * S8000x32.size a ≤ (i a).val ∧ (i a).val < win2_2.index t a * S8000x32.size a + S8000x32.size a := by
  show i ∈ ((View.whole main_v32).slice (win2_2.rect t)).set ↔ _
  rw [View.set_slice_whole, Rect.mem_set_unit]
  exact Iff.rfl

/-- The blocks tile the result array: row r lies in the block of point r / 8000. -/
theorem cover (i : S1600000x32.Idx) : ∃ t : Fin cfg2.N, (cfg2.win 2).flush t = true ∧ i ∈ ((cfg2.win 2).blk t).view.set := by
  have hN : cfg2.N = 200 := N_2
  have hi0 : (i 0).val < 1600000 := (i 0).isLt
  have hi1 : (i 1).val < 32 := (i 1).isLt
  refine ⟨⟨(i 0).val / 8000, by rw [hN]; omega⟩, flush2_2 _, ?_⟩
  rw [mem_blk]
  obtain ⟨e0, e1, e2, e3, e4, e5⟩ := idx_facts ⟨(i 0).val / 8000, by rw [hN]; omega⟩
  intro a
  match a with
  | ⟨0, _⟩ =>
    show win2_2.index _ (0 : Fin 2) * 8000 ≤ (i 0).val ∧ (i 0).val < win2_2.index _ (0 : Fin 2) * 8000 + 8000
    rw [e4]; show (i 0).val / 8000 * 8000 ≤ (i 0).val ∧ (i 0).val < (i 0).val / 8000 * 8000 + 8000; omega
  | ⟨1, _⟩ =>
    show win2_2.index _ (1 : Fin 2) * 32 ≤ (i 1).val ∧ (i 1).val < win2_2.index _ (1 : Fin 2) * 32 + 32
    rw [e5]; omega

/-- The result array after the region: the weight column broadcast along the lanes, times the gathered features. -/
theorem final (c : Dev nD) :
    (dat2 (F := Ideal) V c).arrAt 2 cfg2.N = G (V c (Pipeline.arrRef spec2 0)) (V c (Pipeline.arrRef spec2 1)) :=
  (dat2 V c).arrAt_eq_of_cover 2 _ (fun t _ => flushed_eq V c t) cover

end Cert.KernelIdeal.Reg2

end
-- ==== Proof.LibAttnRead.lean ====
/-
  Two more reads at an index, at the extended reals: an m×k by n×k matrix product contracted on the LAST axis of both
  operands (a product with the transpose of the right operand) into a zero accumulator, and the maximum along the
  lanes of a matrix as a fold of `max` over the row.
-/
import Idealize.ShloMosaic.Lib.ValueIdx
import Idealize.ShloMosaic.Lib.Pipeline.Value
import Idealize.ShloMosaic.PureOps.Ideal.Laws

noncomputable section

open scoped BigOperators

namespace Cert.AttnRead

open Idealize.ShloMosaic Idealize.ShloMosaic.ValueIdx

/-- `[m, k] × [n, k]` contracted on both last axes into the zero splat, at `(i, j)`: the inner product of row `i` of the
    left operand with row `j` of the right. -/
theorem matmul_transposedRhs_zero_apply {m k n : ℕ} {φ₁ φ₂ : FTy} (prec : Option ContractPrecision)
    (A : FVec Ideal ⟨2, ![m, k]⟩ φ₁) (B : FVec Ideal ⟨2, ![n, k]⟩ φ₂) (i : Fin m) (j : Fin n) :
    matmul (DotDims.transposedRhs m k n) prec A B (constant ⟨2, ![m, n]⟩ .f32 0x00000000#32) (ix2 i j)
      = ∑ c : Fin k, A (ix2 i c) * B (ix2 j c) := by
  show FloatOps.matmul _ prec A B _ (ix2 i j) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 i j) ((contrEquiv1 _ k rfl rfl).symm c) = ix2 i c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 i j) ((contrEquiv1 _ k rfl rfl).symm c) = ix2 j c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The index a one-axis reduction of a matrix along axis 1 inserts the coordinate into. -/
theorem lift_lane {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <maximumf>` of an `[a, b]` vector along axis 1, at row `r`, is the fold of `max` from the
    accumulator's value over the row. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction (F := Ideal) .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · Finset.univ) (funext fun k => congrArg src (lift_lane h r k))

end Cert.AttnRead

end
-- ==== Proof.EdgeChain.lean ====
/-
  The edge-chain kernel against the host's attention chain, at the extended reals.

  Both compute, from two arrays of 1600000 edge scores `u` and `v`,

      att_e = exp ((l_e − m) / (M − m)),   l_e = leaky (u_e + v_e),   m = min over all e of l_e,   M = max over all e of l_e,

  the host on the flat arrays, the kernel on their row-major reshape to 12500 rows of 128 lanes (flat entry
  `e = 128 r + c` is entry `(r, c)`), where it takes `m` as the minimum over the rows of the row minima and `M` as the
  maximum over the rows of the row maxima, each from `+∞` resp. `−∞`.

  The one real step: in a linear order a minimum of minima (each from `b`) is the minimum (from `b`) of all the values,
  since both are the greatest lower bound of `b` and the values (`fold_min_two_level`; dually for maxima). Nothing is
  assumed of the entries: they may be infinite. The rest reads each operation of the two chains at an index.
-/
import proofs.«145616_j62182536511744_1_alg».proof.Proof.Spec
import proofs.«145616_j62182536511744_1_alg».proof.Proof.Gen.KernelIdeal.Skeleton
import proofs.«145616_j62182536511744_1_alg».proof.Proof.LibAttnRead
import proofs.«145616_j62182536511744_1_alg».proof.Proof.LibReadAt
import Idealize.ShloMosaic.PureOps.Ideal.Laws
import Idealize.ShloMosaic.Lib.ValueIdx
import Idealize.ShloMosaic.Lib.Pipeline.Value
import Idealize.ShloMosaic.Lib.IdealHost

noncomputable section
namespace Cert.EdgeChain
open Idealize.ShloMosaic Idealize.ShloMosaic.ValueIdx

/-! ## Order theory: a minimum of minima is the minimum of everything -/

/-- In a linear order, the minimum (from `b`) over `r` of the minima (from `b`) over `c` of `g r c` is the minimum
    (from `b`) over a finite set `S` of any family `f` whose values on `S` are exactly the values `g r c`: both are the
    greatest lower bound of `b` and those values. -/
theorem fold_min_two_level {α ι : Type} [LinearOrder α] {R C : ℕ} (b : α) (g : Fin R → Fin C → α) (S : Finset ι) (f : ι → α)
    (hsplit : ∀ i ∈ S, ∃ r c, f i = g r c) (hjoin : ∀ r c, ∃ i ∈ S, f i = g r c) :
    (Finset.univ : Finset (Fin R)).fold min b (fun r => (Finset.univ : Finset (Fin C)).fold min b (fun c => g r c))
      = S.fold min b f := by
  refine eq_of_forall_le_iff fun x => ?_
  rw [Finset.le_fold_min, Finset.le_fold_min]
  constructor
  · rintro ⟨hb, h⟩
    refine ⟨hb, fun i hi => ?_⟩
    obtain ⟨r, c, hrc⟩ := hsplit i hi
    rw [hrc]
    exact ((Finset.le_fold_min x).1 (h r (Finset.mem_univ r))).2 c (Finset.mem_univ c)
  · rintro ⟨hb, h⟩
    refine ⟨hb, fun r _ => (Finset.le_fold_min x).2 ⟨hb, fun c _ => ?_⟩⟩
    obtain ⟨i, hi, he⟩ := hjoin r c
    rw [← he]
    exact h i hi

/-- The same for maxima: both sides are the least upper bound of `b` and the values. -/
theorem fold_max_two_level {α ι : Type} [LinearOrder α] {R C : ℕ} (b : α) (g : Fin R → Fin C → α) (S : Finset ι) (f : ι → α)
    (hsplit : ∀ i ∈ S, ∃ r c, f i = g r c) (hjoin : ∀ r c, ∃ i ∈ S, f i = g r c) :
    (Finset.univ : Finset (Fin R)).fold max b (fun r => (Finset.univ : Finset (Fin C)).fold max b (fun c => g r c))
      = S.fold max b f := by
  refine eq_of_forall_ge_iff fun x => ?_
  rw [Finset.fold_max_le, Finset.fold_max_le]
  constructor
  · rintro ⟨hb, h⟩
    refine ⟨hb, fun i hi => ?_⟩
    obtain ⟨r, c, hrc⟩ := hsplit i hi
    rw [hrc]
    exact ((Finset.fold_max_le x).1 (h r (Finset.mem_univ r))).2 c (Finset.mem_univ c)
  · rintro ⟨hb, h⟩
    refine ⟨hb, fun r _ => (Finset.fold_max_le x).2 ⟨hb, fun c _ => ?_⟩⟩
    obtain ⟨i, hi, he⟩ := hjoin r c
    rw [← he]
    exact h i hi

/-! ## Reads at an index -/

/-- The row-major reshape of a flat array of 1600000 entries to 12500 rows of 128: entry `(r, c)` is the flat entry
    `128 r + c`. -/
theorem reshape_apply {α : Type} (x : (⟨1, ![1600000]⟩ : Shape).Idx → α)
    (h : (⟨1, ![1600000]⟩ : Shape).ShapeCasts ⟨2, ![12500, 128]⟩) (r : Fin 12500) (c : Fin 128) (e : Fin 1600000)
    (he : e.val = r.val * 128 + c.val) :
    shapeCast ⟨2, ![12500, 128]⟩ x h (ix2 r c) = x (ix1 e) :=
  shapeCast_apply x h _ _ (by
    rw [Shape.rowMajor_val_one, Shape.rowMajor_val_two]
    show e.val = r.val * 128 + c.val
    exact he)

/-- The reshape back: flat entry `128 r + c` is entry `(r, c)`. -/
theorem flatten_apply {α : Type} (x : (⟨2, ![12500, 128]⟩ : Shape).Idx → α)
    (h : (⟨2, ![12500, 128]⟩ : Shape).ShapeCasts ⟨1, ![1600000]⟩) (r : Fin 12500) (c : Fin 128) (e : Fin 1600000)
    (he : e.val = r.val * 128 + c.val) :
    shapeCast ⟨1, ![1600000]⟩ x h (ix1 e) = x (ix2 r c) :=
  shapeCast_apply x h _ _ (by
    rw [Shape.rowMajor_val_one, Shape.rowMajor_val_two]
    show r.val * 128 + c.val = e.val
    exact he.symm)

/-- A `[1, 1]` value broadcast to a matrix reads, everywhere, its one entry. -/
theorem bcast_unit_apply {α : Type} {a b : ℕ} (x : (⟨2, ![1, 1]⟩ : Shape).Idx → α)
    (h : (⟨2, ![1, 1]⟩ : Shape).Broadcasts ⟨2, ![a, b]⟩) (r : Fin a) (c : Fin b) :
    broadcastTo ⟨2, ![a, b]⟩ x h (ix2 r c) = x (ix2 (0 : Fin 1) (0 : Fin 1)) := by
  refine broadcastTo_apply x h (ix2 r c) (ix2 (0 : Fin 1) (0 : Fin 1)) fun ax => ?_
  match ax with
  | ⟨0, _⟩ => rfl
  | ⟨1, _⟩ => rfl

/-- The exponential of a vector, at an index. -/
theorem exp_apply {s : Shape} {φ : FTy} (x : FVec Ideal s φ) (i : s.Idx) : exp x i = Ideal.exp (x i) := rfl

/-- The host's exponential of an array, at an index. -/
theorem hostExp_apply {s : Shape} {φ : FTy} (x : FVec Ideal s φ) (i : s.Idx) : Host.exp x i = Ideal.exp (x i) := rfl

/-! ## Minimum and maximum reductions as folds -/

/-- A float `minimumf` reduction over one axis, at the extended reals: the fold of `min` from the accumulator's value over
    that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the lanes of a matrix, at row `r`. -/
theorem laneMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction (F := Ideal) .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  exact congrArg (Finset.fold min (Ideal.ofBits φ acc) · Finset.univ) (funext fun k => congrArg src (AttnRead.lift_lane h r k))

/-- The index a reduction of a matrix along axis 0 inserts the coordinate into. -/
theorem lift_rows {a b : ℕ} (h : (⟨2, ![a, b]⟩ : Shape).Reduces [0] ⟨1, ![b]⟩) (c : Fin b) (k : Fin a) :
    h.lift (ix1 c) k = ix2 k c := by
  funext ax; apply Fin.ext
  match ax with
  | ⟨0, _⟩ => rfl
  | ⟨1, _⟩ => rfl

/-- The minimum down the rows of a matrix, at column `c`. -/
theorem colMin_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (c : Fin b) :
    multiReduction (F := Ideal) .minimumf [0] ⟨1, ![b]⟩ src acc h hφ hacc (ix1 c)
      = (Finset.univ : Finset (Fin a)).fold min (Ideal.ofBits φ acc) (fun k => src (ix2 k c)) := by
  refine (multiReduction_minimumf_single src acc h hφ hacc (ix1 c)).trans ?_
  exact congrArg (Finset.fold min (Ideal.ofBits φ acc) · Finset.univ) (funext fun k => congrArg src (lift_rows h c k))

/-- The maximum down the rows of a matrix, at column `c`. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction (F := Ideal) .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  exact congrArg (Finset.fold max (Ideal.ofBits φ acc) · Finset.univ) (funext fun k => congrArg src (lift_rows h c k))

/-- A fold of the ideal instance's `minimumf` is the fold of `min`. -/
theorem fold_minimumf_eq {ι : Type} {φ : FTy} (S : Finset ι) (b : Ideal φ) (f : ι → Ideal φ) :
    S.fold FloatOps.minimumf b f = S.fold min b f := rfl

/-- A fold of the ideal instance's `maximumf` is the fold of `max`. -/
theorem fold_maximumf_eq {ι : Type} {φ : FTy} (S : Finset ι) (b : Ideal φ) (f : ι → Ideal φ) :
    S.fold FloatOps.maximumf b f = S.fold max b f := rfl

/-- The host's reduction of a whole array to rank zero, by a commutative and associative body: the fold over a finite
    set that holds every index. -/
theorem hostReduce_all {α : Type} {s u : Shape} {axes : List (Fin s.rank)} (f : α → α → α) [Std.Commutative f]
    [Std.Associative f] (x : s.Idx → α) (init : u.Idx → α) (h' : s.ReducesTo axes ⟨0, ![]⟩) (hu : 0 < u.numel)
    (j : (⟨0, ![]⟩ : Shape).Idx) :
    ∃ S : Finset s.Idx, (∀ i, i ∈ S) ∧ Host.reduce f x init h' hu j = S.fold f (init (Shape.Idx.first hu)) x :=
  ⟨_, fun i => Finset.mem_filter.2 ⟨Finset.mem_univ i, funext fun a => a.elim0⟩, Host.reduce_eq_fold f x init h' hu j⟩

/-! ## The kernel's body, piece by piece -/

section Pieces
open Cert.KernelIdeal Cert.KernelIdeal.Gen

/-- The leaky rectifier of slope 0.2 (the value the f32 pattern `0x3E4CCCCD` denotes) on one extended real. -/
def leaky (s : Ideal .f32) : Ideal .f32 :=
  Scalar.select (FloatOps.cmpf .oge s (Ideal.ofBits .f32 0x00000000#32)) s (Ideal.ofBits .f32 0x3E4CCCCD#32 * s)

/-- The kernel's sum of its two operands. -/
def kS (x0 x1 : FVec Ideal S12500x128 .f32) : FVec Ideal S12500x128 .f32 :=
  addf (shapeCast S12500x128 x0 shapeCasts_S12500x128_S12500x128) (shapeCast S12500x128 x1 shapeCasts_S12500x128_S12500x128)

/-- The kernel's rectified scores. -/
def kL (x0 x1 : FVec Ideal S12500x128 .f32) : FVec Ideal S12500x128 .f32 :=
  select (cmpf .oge (kS x0 x1) (broadcast S12500x128 (Scalar.ofBits .f32 0x00000000#32))) (kS x0 x1)
    (mulf (broadcast S12500x128 (Scalar.ofBits .f32 0x3E4CCCCD#32)) (kS x0 x1))

/-- The kernel's minimum of a matrix: along the lanes, then down the column of row minima. -/
def kMin (L : FVec Ideal S12500x128 .f32) : FVec Ideal S1x1 .f32 :=
  shapeCast S1x1
    (multiReduction (F := Ideal) .minimumf [0] S1
      (shapeCast S12500x1
        (multiReduction (F := Ideal) .minimumf [1] S12500 L 0x7F800000#32 reduces_S12500x128_S12500 (.inl rfl) rfl)
        shapeCasts_S12500_S12500x1)
      0x7F800000#32 reduces_S12500x1_S1 (.inl rfl) rfl)
    shapeCasts_S1_S1x1

/-- The kernel's maximum of a matrix, likewise. -/
def kMax (L : FVec Ideal S12500x128 .f32) : FVec Ideal S1x1 .f32 :=
  shapeCast S1x1
    (multiReduction (F := Ideal) .maximumf [0] S1
      (shapeCast S12500x1
        (multiReduction (F := Ideal) .maximumf [1] S12500 L 0xFF800000#32 reduces_S12500x128_S12500 (.inl rfl) rfl)
        shapeCasts_S12500_S12500x1)
      0xFF800000#32 reduces_S12500x1_S1 (.inl rfl) rfl)
    shapeCasts_S1_S1x1

/-- The kernel's body is the exponential of the min-max normalised rectified scores: its definition, with the
    intermediate values named. -/
theorem k1_pay1_eq (x0 x1 : FVec Ideal S12500x128 .f32) :
    k1_pay1 (F := Ideal) x0 x1
      = exp (divf (subf (kL x0 x1) (broadcastTo S12500x128 (kMin (kL x0 x1)) broadcasts_S1x1_S12500x128))
          (broadcastTo S12500x128 (subf (kMax (kL x0 x1)) (kMin (kL x0 x1))) broadcasts_S1x1_S12500x128)) := rfl

theorem kL_apply (x0 x1 : FVec Ideal S12500x128 .f32) (i : S12500x128.Idx) :
    kL x0 x1 i = leaky (x0 i + x1 i) := by
  unfold kL kS
  rw [shapeCast_self, shapeCast_self]
  rfl

theorem kMin_apply (L : FVec Ideal S12500x128 .f32) :
    kMin L (ix2 (0 : Fin 1) (0 : Fin 1))
      = (Finset.univ : Finset (Fin 12500)).fold min (Ideal.ofBits .f32 0x7F800000#32)
          (fun r => (Finset.univ : Finset (Fin 128)).fold min (Ideal.ofBits .f32 0x7F800000#32) (fun c => L (ix2 r c))) := by
  unfold kMin
  refine (ReadAt.shapeCast_a_a1_apply _ _ (0 : Fin 1) (0 : Fin 1)).trans ?_
  refine (colMin_apply _ _ _ _ _ (0 : Fin 1)).trans ?_
  refine congrArg (Finset.fold min (Ideal.ofBits .f32 0x7F800000#32) · Finset.univ) (funext fun k => ?_)
  refine (ReadAt.shapeCast_a_a1_apply _ _ k (0 : Fin 1)).trans ?_
  exact laneMin_apply _ _ _ _ _ k

theorem kMax_apply (L : FVec Ideal S12500x128 .f32) :
    kMax L (ix2 (0 : Fin 1) (0 : Fin 1))
      = (Finset.univ : Finset (Fin 12500)).fold max (Ideal.ofBits .f32 0xFF800000#32)
          (fun r => (Finset.univ : Finset (Fin 128)).fold max (Ideal.ofBits .f32 0xFF800000#32) (fun c => L (ix2 r c))) := by
  unfold kMax
  refine (ReadAt.shapeCast_a_a1_apply _ _ (0 : Fin 1) (0 : Fin 1)).trans ?_
  refine (colMax_apply _ _ _ _ _ (0 : Fin 1)).trans ?_
  refine congrArg (Finset.fold max (Ideal.ofBits .f32 0xFF800000#32) · Finset.univ) (funext fun k => ?_)
  refine (ReadAt.shapeCast_a_a1_apply _ _ k (0 : Fin 1)).trans ?_
  exact AttnRead.laneMax_apply _ _ _ _ _ k

/-- The kernel's body at `(r, c)`. -/
theorem kernel_apply (x0 x1 : FVec Ideal S12500x128 .f32) (r : Fin 12500) (c : Fin 128) :
    k1_pay1 (F := Ideal) x0 x1 (ix2 r c)
      = Ideal.exp (Ideal.div
          (leaky (x0 (ix2 r c) + x1 (ix2 r c)) - kMin (kL x0 x1) (ix2 (0 : Fin 1) (0 : Fin 1)))
          (kMax (kL x0 x1) (ix2 (0 : Fin 1) (0 : Fin 1)) - kMin (kL x0 x1) (ix2 (0 : Fin 1) (0 : Fin 1)))) := by
  rw [k1_pay1_eq, exp_apply, divf_apply, subf_apply, bcast_unit_apply, bcast_unit_apply, subf_apply, kL_apply]

end Pieces

/-! ## The host's chain, piece by piece -/

section Host
open Cert.ReferenceIdeal

theorem lrelu_apply (s : FVec Ideal S1600000 .f32) (i : S1600000.Idx) :
    Spec.lrelu (F := Ideal) s i = leaky (s i) := rfl

/-- The host's global minimum is the fold of `min` from `+∞` over a finite set that holds every flat index. -/
theorem gmin_apply (l : FVec Ideal S1600000 .f32) (j : S_.Idx) :
    ∃ S : Finset S1600000.Idx, (∀ i, i ∈ S) ∧
      Spec.gmin (F := Ideal) l j = S.fold min (Ideal.ofBits .f32 0x7F800000#32) l := by
  unfold Spec.gmin
  obtain ⟨S, hS, h⟩ := hostReduce_all FloatOps.minimumf l (constant (F := Ideal) S_ .f32 0x7F800000#32)
    Gen.reducesTo_S1600000_S_d0 Gen.h_S_ j
  rw [fold_minimumf_eq, constant_apply] at h
  exact ⟨S, hS, h⟩

/-- The host's global maximum is the fold of `max` from `−∞` over a finite set that holds every flat index. -/
theorem gmax_apply (l : FVec Ideal S1600000 .f32) (j : S_.Idx) :
    ∃ S : Finset S1600000.Idx, (∀ i, i ∈ S) ∧
      Spec.gmax (F := Ideal) l j = S.fold max (Ideal.ofBits .f32 0xFF800000#32) l := by
  unfold Spec.gmax
  obtain ⟨S, hS, h⟩ := hostReduce_all FloatOps.maximumf l (constant (F := Ideal) S_ .f32 0xFF800000#32)
    Gen.reducesTo_S1600000_S_d0 Gen.h_S_ j
  rw [fold_maximumf_eq, constant_apply] at h
  exact ⟨S, hS, h⟩

/-- The host's chain at flat entry `e`. -/
theorem att_apply (u v : FVec Ideal S1600000 .f32) (e : Fin 1600000) :
    Spec.att (F := Ideal) u v (ix1 e)
      = Ideal.exp (Ideal.div
          (leaky (u (ix1 e) + v (ix1 e)) - Spec.gmin (F := Ideal) (Spec.lrelu (F := Ideal) (addf u v)) ix0)
          (Spec.gmax (F := Ideal) (Spec.lrelu (F := Ideal) (addf u v)) ix0
            - Spec.gmin (F := Ideal) (Spec.lrelu (F := Ideal) (addf u v)) ix0)) := by
  unfold Spec.att Spec.normExp
  rw [hostExp_apply, hostDivf_apply, subf_apply, broadcastInDim_scalar_apply, broadcastInDim_scalar_apply, subf_apply,
    lrelu_apply, addf_apply]

end Host

/-! ## The two agree -/

section Agree
open Cert.KernelIdeal

/-- Entry `(r, c)` of the kernel's rectified scores of the reshaped operands is flat entry `128 r + c` of the host's. -/
theorem entry_agree (u v : FVec Ideal S1600000 .f32) (h : S1600000.ShapeCasts S12500x128)
    (r : Fin 12500) (c : Fin 128) (e : Fin 1600000) (he : e.val = r.val * 128 + c.val) :
    Cert.ReferenceIdeal.Spec.lrelu (F := Ideal) (addf u v) (ix1 e)
      = kL (shapeCast S12500x128 u h) (shapeCast S12500x128 v h) (ix2 r c) := by
  rw [kL_apply, lrelu_apply, reshape_apply u h r c e he, reshape_apply v h r c e he, addf_apply]

/-- Every flat index is `128 r + c` for a row `r` and a lane `c`. -/
theorem split_entry (e : Fin 1600000) :
    ∃ (r : Fin 12500) (c : Fin 128), e.val = r.val * 128 + c.val := by
  have h := e.isLt
  exact ⟨⟨e.val / 128, by omega⟩, ⟨e.val % 128, by omega⟩, by show e.val = e.val / 128 * 128 + e.val % 128; omega⟩

/-- Every row `r` and lane `c` give the flat index `128 r + c`. -/
theorem join_entry (r : Fin 12500) (c : Fin 128) :
    ∃ e : Fin 1600000, e.val = r.val * 128 + c.val := by
  have hr := r.isLt
  have hc := c.isLt
  exact ⟨⟨r.val * 128 + c.val, by omega⟩, rfl⟩

/-- The kernel's minimum (of the row minima) is the host's minimum (of all entries). -/
theorem mins_agree (u v : FVec Ideal S1600000 .f32) (h : S1600000.ShapeCasts S12500x128) :
    kMin (kL (shapeCast S12500x128 u h) (shapeCast S12500x128 v h)) (ix2 (0 : Fin 1) (0 : Fin 1))
      = Cert.ReferenceIdeal.Spec.gmin (F := Ideal) (Cert.ReferenceIdeal.Spec.lrelu (F := Ideal) (addf u v)) ix0 := by
  obtain ⟨S, hS, hg⟩ := gmin_apply (Cert.ReferenceIdeal.Spec.lrelu (F := Ideal) (addf u v)) ix0
  rw [kMin_apply, hg]
  refine fold_min_two_level _ (fun r c => kL (shapeCast S12500x128 u h) (shapeCast S12500x128 v h) (ix2 r c)) S _
    (fun i _ => ?_) (fun r c => ?_)
  · obtain ⟨e, rfl⟩ : ∃ e : Fin 1600000, i = ix1 e := ⟨i 0, eq_ix1 i⟩
    obtain ⟨r, c, he⟩ := split_entry e
    exact ⟨r, c, entry_agree u v h r c e he⟩
  · obtain ⟨e, he⟩ := join_entry r c
    exact ⟨ix1 e, hS _, entry_agree u v h r c e he⟩

/-- The same for the maxima. -/
theorem maxs_agree (u v : FVec Ideal S1600000 .f32) (h : S1600000.ShapeCasts S12500x128) :
    kMax (kL (shapeCast S12500x128 u h) (shapeCast S12500x128 v h)) (ix2 (0 : Fin 1) (0 : Fin 1))
      = Cert.ReferenceIdeal.Spec.gmax (F := Ideal) (Cert.ReferenceIdeal.Spec.lrelu (F := Ideal) (addf u v)) ix0 := by
  obtain ⟨S, hS, hg⟩ := gmax_apply (Cert.ReferenceIdeal.Spec.lrelu (F := Ideal) (addf u v)) ix0
  rw [kMax_apply, hg]
  refine fold_max_two_level _ (fun r c => kL (shapeCast S12500x128 u h) (shapeCast S12500x128 v h) (ix2 r c)) S _
    (fun i _ => ?_) (fun r c => ?_)
  · obtain ⟨e, rfl⟩ : ∃ e : Fin 1600000, i = ix1 e := ⟨i 0, eq_ix1 i⟩
    obtain ⟨r, c, he⟩ := split_entry e
    exact ⟨r, c, entry_agree u v h r c e he⟩
  · obtain ⟨e, he⟩ := join_entry r c
    exact ⟨ix1 e, hS _, entry_agree u v h r c e he⟩

end Agree

/-- The kernel's body on the reshaped edge scores, flattened back, is the host's attention chain. -/
theorem edge_chain (u v : FVec Ideal Cert.KernelIdeal.S1600000 .f32) :
    shapeCast Cert.KernelIdeal.S1600000
      (Cert.KernelIdeal.Gen.k1_pay1 (F := Ideal)
        (shapeCast Cert.KernelIdeal.S12500x128 u Cert.KernelIdeal.Facts₀.shapeCasts_S1600000_S12500x128)
        (shapeCast Cert.KernelIdeal.S12500x128 v Cert.KernelIdeal.Facts₀.shapeCasts_S1600000_S12500x128))
      Cert.KernelIdeal.Facts₀.shapeCasts_S12500x128_S1600000
    = Cert.ReferenceIdeal.Spec.att (F := Ideal) u v := by
  funext j
  obtain ⟨e, rfl⟩ : ∃ e : Fin 1600000, j = ix1 e := ⟨j 0, eq_ix1 j⟩
  obtain ⟨r, c, he⟩ := split_entry e
  rw [flatten_apply _ _ r c e he, kernel_apply, att_apply, mins_agree, maxs_agree,
    reshape_apply u _ r c e he, reshape_apply v _ r c e he]

end Cert.EdgeChain
end
-- ==== Proof.LibUnitAxisCast.lean ====
/-
  A reshape that only adds a unit axis is a broadcast along that axis.

  Reshaping a vector of length `n` to a column `[n, 1]` or to a row `[1, n]` keeps the row-major position of every
  entry, and the new axis has the one coordinate `0`; a `broadcast_in_dim` that sends the vector's axis to the long
  axis of the column or row reads the same entry.  So the two operations are one function, for every length and
  every element type.
-/
import Idealize.ShloMosaic.Lib.Pipeline.Value
import Idealize.ShloMosaic.Lib.ValueIdx

namespace Cert.Lib.UnitAxisCast

open Idealize.ShloMosaic Idealize.ShloMosaic.ValueIdx

/-- A vector of length `n` reshaped to the column `[n, 1]` is the vector broadcast along a new trailing unit axis:
    entry `(r, 0)` of either is entry `r` of the vector. -/
theorem shapeCast_column {α : Type} (n : Nat) (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext i
  have hi0 : (i 0).val < n := (i 0).isLt
  have hi1 : (i 1).val < 1 := (i 1).isLt
  rw [shapeCast_apply v h i (ix1 (⟨(i 0).val, hi0⟩ : Fin n)) (by
        rw [Shape.rowMajor_val_one, Shape.rowMajor_val_two]
        show (i 0).val = (i 0).val * 1 + (i 1).val
        omega),
      broadcastInDim_apply ![0] h' v i (ix1 (⟨(i 0).val, hi0⟩ : Fin n)) (fun a => by
        match a with
        | ⟨0, _⟩ =>
          show (i 0).val = if n = 1 then 0 else (i 0).val
          split
          · omega
          · rfl)]

/-- A vector of length `n` reshaped to the row `[1, n]` is the vector broadcast along a new leading unit axis:
    entry `(0, q)` of either is entry `q` of the vector. -/
theorem shapeCast_row {α : Type} (n : Nat) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext i
  have hi0 : (i 0).val < 1 := (i 0).isLt
  have hi1 : (i 1).val < n := (i 1).isLt
  have h0 : (i 0).val = 0 := by omega
  rw [shapeCast_apply v h i (ix1 (⟨(i 1).val, hi1⟩ : Fin n)) (by
        rw [Shape.rowMajor_val_one, Shape.rowMajor_val_two]
        show (i 1).val = (i 0).val * n + (i 1).val
        rw [h0]; omega),
      broadcastInDim_apply ![1] h' v i (ix1 (⟨(i 1).val, hi1⟩ : Fin n)) (fun a => by
        match a with
        | ⟨0, _⟩ =>
          show (i 1).val = if n = 1 then 0 else (i 1).val
          split
          · omega
          · rfl)]

end Cert.Lib.UnitAxisCast
-- ==== Proof.KValue.lean ====
/-
  The idealized kernel program's result array as the reference's function of the six argument arrays.

  The buffer contents are folded through @main's six segments.  Reading the fold backwards from the result buffer:
  the last stretch divides the summed weighted rows by the summed weights; the third region's array is the weight
  column times the gathered rows; the second stretch lays the second region's array flat, sums it per destination
  row, gathers the projected rows and views the flat weights as a column; the second region's array is the edge
  chain of the two gathered halves laid out as [12500, 128]; the first stretch gathers the halves, taken as
  vectors, per edge; and the first region's arrays are the projection and the two halves as columns.  A column
  taken as a vector is the vector; the edge chain on the [12500, 128] layout, laid flat, is the reference's chain
  on the flat arrays; and a flat vector viewed as a column is its broadcast along the new axis.  Composed, the
  result buffer holds the reference's function of the arguments.
-/
import proofs.«145616_j62182536511744_1_alg».proof.Proof.Gen.KernelIdeal.Frame
import proofs.«145616_j62182536511744_1_alg».proof.Proof.Spec
import proofs.«145616_j62182536511744_1_alg».proof.Proof.Stretches
import proofs.«145616_j62182536511744_1_alg».proof.Proof.Reg0
import proofs.«145616_j62182536511744_1_alg».proof.Proof.Reg1
import proofs.«145616_j62182536511744_1_alg».proof.Proof.Reg2
import proofs.«145616_j62182536511744_1_alg».proof.Proof.EdgeChain
import proofs.«145616_j62182536511744_1_alg».proof.Proof.LibUnitAxisCast

set_option maxRecDepth 16384

noncomputable section

namespace Cert.KernelIdeal.KValue

open Cert.KernelIdeal Cert.KernelIdeal.Gen
open Idealize.ShloMosaic Idealize.ShloMosaic.TcCoe Idealize.SL.Sem
open Cert.ReferenceIdeal (Spec.result Spec.finish Spec.proj Spec.half Spec.att Spec.perEdge Spec.rowsSum Spec.featPerEdge Spec.weighted Spec.aggregate)

variable (m : (ℓ : Loc nD τ sig) → Buf (Elt Ideal) ℓ) (ρ : Dev nD → PrngReg)

/-- The weight column times the rows, with the column a flat vector viewed as a column, is the reference's scaling
    of every row by its edge's weight. -/
theorem weighted_of_column (a : FVec Ideal S1600000 .f32) (x : FVec Ideal S1600000x32 .f32) :
    Reg2.G (shapeCast S1600000x1 a shapeCasts_S1600000_S1600000x1) x = Cert.ReferenceIdeal.Spec.weighted (F := Ideal) a x := by
  rw [Cert.Lib.UnitAxisCast.shapeCast_column 1600000 a shapeCasts_S1600000_S1600000x1 Cert.ReferenceIdeal.Facts₀.bcast_S1600000_S1600000x1_0]
  rfl

/-- THE VALUE: the last boundary's contents at the result buffer are the reference's function of the arguments. -/
theorem value (c : Dev nD) :
    W6 m ρ c (Proc.devRef .tc main_v38)
      = Cert.ReferenceIdeal.Spec.result (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  -- the first region's arrays, and the two index arrays it leaves alone
  have r0a : W1 m ρ c (Proc.devRef .tc main_v0_0)
      = Cert.ReferenceIdeal.Spec.proj (F := Ideal) (m ((c : Thread nD τ).loc main_arg0)) (m ((c : Thread nD τ).loc main_arg1)) :=
    (W1_arr m ρ c 4).trans (Reg0.final4 (V0 m ρ) c)
  have r0b : W1 m ρ c (Proc.devRef .tc main_v0_1)
      = Reg0.col (Cert.ReferenceIdeal.Spec.half (F := Ideal) (Cert.ReferenceIdeal.Spec.proj (F := Ideal) (m ((c : Thread nD τ).loc main_arg0)) (m ((c : Thread nD τ).loc main_arg1))) (m ((c : Thread nD τ).loc main_arg2))) :=
    (W1_arr m ρ c 5).trans (Reg0.final5 (V0 m ρ) c)
  have r0c : W1 m ρ c (Proc.devRef .tc main_v0_2)
      = Reg0.col (Cert.ReferenceIdeal.Spec.half (F := Ideal) (Cert.ReferenceIdeal.Spec.proj (F := Ideal) (m ((c : Thread nD τ).loc main_arg0)) (m ((c : Thread nD τ).loc main_arg1))) (m ((c : Thread nD τ).loc main_arg3))) :=
    (W1_arr m ρ c 6).trans (Reg0.final6 (V0 m ρ) c)
  have r0d : W1 m ρ c (Proc.devRef .tc main_arg4) = m ((c : Thread nD τ).loc main_arg4) := W1_of_ne m ρ c main_arg4 (by decide)
  have r0e : W1 m ρ c (Proc.devRef .tc main_arg5) = m ((c : Thread nD τ).loc main_arg5) := W1_of_ne m ρ c main_arg5 (by decide)
  -- the first stretch
  have s1a : W2 m ρ c (Proc.devRef .tc main_v17) = _ := Stretches.s1_v17 (W1 m ρ c)
  have s1b : W2 m ρ c (Proc.devRef .tc main_v18) = _ := Stretches.s1_v18 (W1 m ρ c)
  have s1c : W2 m ρ c (Proc.devRef .tc main_v0_0) = _ := Stretches.s1_v0_0 (W1 m ρ c)
  have s1d : W2 m ρ c (Proc.devRef .tc main_arg4) = _ := Stretches.s1_arg4 (W1 m ρ c)
  have s1e : W2 m ρ c (Proc.devRef .tc main_arg5) = _ := Stretches.s1_arg5 (W1 m ρ c)
  rw [r0b, r0d, Reg0.shapeCast_col] at s1a
  rw [r0c, r0e, Reg0.shapeCast_col] at s1b
  rw [r0a] at s1c
  rw [r0d] at s1d
  rw [r0e] at s1e
  -- the second region's array, and what it leaves alone
  have r1a : W3 m ρ c (Proc.devRef .tc main_v19)
      = k1_pay1 (F := Ideal) (W2 m ρ c (Proc.devRef .tc main_v17)) (W2 m ρ c (Proc.devRef .tc main_v18)) :=
    (W3_arr m ρ c 2).trans (Reg1.final (V2 m ρ) c)
  have r1b : W3 m ρ c (Proc.devRef .tc main_v0_0) = W2 m ρ c (Proc.devRef .tc main_v0_0) := W3_of_ne m ρ c main_v0_0 (by decide)
  have r1c : W3 m ρ c (Proc.devRef .tc main_arg4) = W2 m ρ c (Proc.devRef .tc main_arg4) := W3_of_ne m ρ c main_arg4 (by decide)
  have r1d : W3 m ρ c (Proc.devRef .tc main_arg5) = W2 m ρ c (Proc.devRef .tc main_arg5) := W3_of_ne m ρ c main_arg5 (by decide)
  rw [s1a, s1b] at r1a
  rw [s1c] at r1b
  rw [s1d] at r1c
  rw [s1e] at r1d
  -- the flat weights are the reference's
  have hatt : Stretches.flat (W3 m ρ c)
      = Cert.ReferenceIdeal.Spec.att (F := Ideal)
          (Cert.ReferenceIdeal.Spec.perEdge (Cert.ReferenceIdeal.Spec.half (F := Ideal) (Cert.ReferenceIdeal.Spec.proj (F := Ideal) (m ((c : Thread nD τ).loc main_arg0)) (m ((c : Thread nD τ).loc main_arg1))) (m ((c : Thread nD τ).loc main_arg2))) (m ((c : Thread nD τ).loc main_arg4)))
          (Cert.ReferenceIdeal.Spec.perEdge (Cert.ReferenceIdeal.Spec.half (F := Ideal) (Cert.ReferenceIdeal.Spec.proj (F := Ideal) (m ((c : Thread nD τ).loc main_arg0)) (m ((c : Thread nD τ).loc main_arg1))) (m ((c : Thread nD τ).loc main_arg3))) (m ((c : Thread nD τ).loc main_arg5))) := by
    unfold Stretches.flat
    rw [r1a]
    exact Cert.EdgeChain.edge_chain _ _
  -- the second stretch
  have s2a : W4 m ρ c (Proc.devRef .tc main_v31) = _ := Stretches.s2_v31 (W3 m ρ c)
  have s2b : W4 m ρ c (Proc.devRef .tc main_v30) = _ := Stretches.s2_v30 (W3 m ρ c)
  have s2c : W4 m ρ c (Proc.devRef .tc main_v23) = _ := Stretches.s2_v23 (W3 m ρ c)
  have s2d : W4 m ρ c (Proc.devRef .tc main_arg4) = _ := Stretches.s2_arg4 (W3 m ρ c)
  rw [hatt] at s2a
  rw [r1b, r1d] at s2b
  rw [hatt, r1c] at s2c
  rw [r1c] at s2d
  -- the third region's array, and what it leaves alone
  have r2a : W5 m ρ c (Proc.devRef .tc main_v32)
      = Reg2.G (W4 m ρ c (Proc.devRef .tc main_v31)) (W4 m ρ c (Proc.devRef .tc main_v30)) :=
    (W5_arr m ρ c 2).trans (Reg2.final (V4 m ρ) c)
  have r2b : W5 m ρ c (Proc.devRef .tc main_v23) = W4 m ρ c (Proc.devRef .tc main_v23) := W5_of_ne m ρ c main_v23 (by decide)
  have r2c : W5 m ρ c (Proc.devRef .tc main_arg4) = W4 m ρ c (Proc.devRef .tc main_arg4) := W5_of_ne m ρ c main_arg4 (by decide)
  rw [s2a, s2b, weighted_of_column] at r2a
  rw [s2c] at r2b
  rw [s2d] at r2c
  -- the last stretch
  refine (Stretches.s3_v38 (W5 m ρ c)).trans ?_
  rw [r2a, r2b, r2c]
  rfl

end Cert.KernelIdeal.KValue

end
-- ==== Proof.RefRun.lean ====
/-
  The reference program's @main as ONE straight line of host operations, and what its run leaves in memory.

  @main is sixty-three statements, one of them a call of the leaky rectifier, whose body (six operations and a
  call of the three-way select, itself one operation) runs on the call's own buffers. Inlined at the call, the
  program is a list of sixty-nine operations, each writing one buffer from buffers written before it. Run in
  order from any memory, the result buffer ends at the composition of the operations' functions over the six
  argument arrays — the term `Spec.result` —, and the six arguments are left as they were, since no operation
  writes them.
-/
import proofs.«145616_j62182536511744_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's sixty-nine operations in order, the call inlined: the projection, the two attention halves (a
    broadcast, a product and a row sum each), each half gathered per edge through the edge's node index (a
    negative index first moved up by the node count), their sum; the leaky rectifier's seven over the call's
    buffers (zero, its broadcast, the comparison with it, the slope, its broadcast, the scaled values, the
    select between the values and the scaled ones); the global minimum and maximum, the normalisation and the
    exponential; the weights summed per destination row; the projected rows gathered per edge, scaled by the
    edge's weight and summed per destination row; the quotient of the two sums. -/
abbrev ops : List (HloOp τ sig (Elt F)) :=
  [ binary main_arg0 main_arg1 main_v0 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    unary main_arg2 main_v1 (broadcastInDim S100000x32 ![0, 1] bcast_S1x32_S100000x32_0_1 : (⟨S1x32, .f32⟩ : BufTy).Contents (Elt F) → (⟨S100000x32, .f32⟩ : BufTy).Contents (Elt F)),
    binary main_v0 main_v1 main_v2 (mulf : (⟨S100000x32, .f32⟩ : BufTy).Contents (Elt F) → (⟨S100000x32, .f32⟩ : BufTy).Contents (Elt F) → (⟨S100000x32, .f32⟩ : BufTy).Contents (Elt F)),
    nullary main_cst (constant S_ .f32 0x00000000#32),
    binary main_v2 main_cst main_v3 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_arg3 main_v4 (broadcastInDim S100000x32 ![0, 1] bcast_S1x32_S100000x32_0_1 : (⟨S1x32, .f32⟩ : BufTy).Contents (Elt F) → (⟨S100000x32, .f32⟩ : BufTy).Contents (Elt F)),
    binary main_v0 main_v4 main_v5 (mulf : (⟨S100000x32, .f32⟩ : BufTy).Contents (Elt F) → (⟨S100000x32, .f32⟩ : BufTy).Contents (Elt F) → (⟨S100000x32, .f32⟩ : BufTy).Contents (Elt F)),
    nullary main_cst_0 (constant S_ .f32 0x00000000#32),
    binary main_v5 main_cst_0 main_v6 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    nullary main_c (constantI S_ 32 0#32),
    unary main_c main_v7 (broadcastInDim S1600000 ![] bcast_S_S1600000 : (⟨S_, .i32⟩ : BufTy).Contents (Elt F) → (⟨S1600000, .i32⟩ : BufTy).Contents (Elt F)),
    binary main_arg4 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v9 (broadcastInDim S1600000 ![] bcast_S_S1600000 : (⟨S_, .i32⟩ : BufTy).Contents (Elt F) → (⟨S1600000, .i32⟩ : BufTy).Contents (Elt F)),
    binary main_arg4 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg4 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_v3 main_v12 main_v13 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_2 (constantI S_ 32 0#32),
    unary main_c_2 main_v14 (broadcastInDim S1600000 ![] bcast_S_S1600000 : (⟨S_, .i32⟩ : BufTy).Contents (Elt F) → (⟨S1600000, .i32⟩ : BufTy).Contents (Elt F)),
    binary main_arg5 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_arg5 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg5 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v6 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v13 main_v20 main_v21 (addf : (⟨S1600000, .f32⟩ : BufTy).Contents (Elt F) → (⟨S1600000, .f32⟩ : BufTy).Contents (Elt F) → (⟨S1600000, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S1600000 ![] bcast_S_S1600000),
    TRef.binary (.of main_v21 : TRef sig ⟨S1600000, .f32⟩) main_call0.v0 main_call0.v1 (cmpf .oge),
    TRef.unary (.of main_cst_4 : TRef sig ⟨S_, .f32⟩) main_call0.v2 id,
    TRef.unary main_call0.v2 main_call0.v3 (broadcastInDim S1600000 ![] bcast_S_S1600000),
    TRef.binary main_call0.v3 (.of main_v21 : TRef sig ⟨S1600000, .f32⟩) main_call0.v4 mulf,
    TRef.ternary main_call0.v1 (.of main_v21 : TRef sig ⟨S1600000, .f32⟩) main_call0.v4 main_call0.call0.v0 select,
    nullary main_cst_5 (constant S_ .f32 0x7F800000#32),
    binary main_v22 main_cst_5 main_v23 ((fun x v => Host.reduce FloatOps.minimumf x v reducesTo_S1600000_S_d0 h_S_) : (⟨S1600000, .f32⟩ : BufTy).Contents (Elt F) → (⟨S_, .f32⟩ : BufTy).Contents (Elt F) → (⟨S_, .f32⟩ : BufTy).Contents (Elt F)),
    nullary main_cst_6 (constant S_ .f32 0xFF800000#32),
    binary main_v22 main_cst_6 main_v24 ((fun x v => Host.reduce FloatOps.maximumf x v reducesTo_S1600000_S_d0 h_S_) : (⟨S1600000, .f32⟩ : BufTy).Contents (Elt F) → (⟨S_, .f32⟩ : BufTy).Contents (Elt F) → (⟨S_, .f32⟩ : BufTy).Contents (Elt F)),
    unary main_v23 main_v25 (broadcastInDim S1600000 ![] bcast_S_S1600000 : (⟨S_, .f32⟩ : BufTy).Contents (Elt F) → (⟨S1600000, .f32⟩ : BufTy).Contents (Elt F)),
    binary main_v22 main_v25 main_v26 (subf : (⟨S1600000, .f32⟩ : BufTy).Contents (Elt F) → (⟨S1600000, .f32⟩ : BufTy).Contents (Elt F) → (⟨S1600000, .f32⟩ : BufTy).Contents (Elt F)),
    binary main_v24 main_v23 main_v27 (subf : (⟨S_, .f32⟩ : BufTy).Contents (Elt F) → (⟨S_, .f32⟩ : BufTy).Contents (Elt F) → (⟨S_, .f32⟩ : BufTy).Contents (Elt F)),
    unary main_v27 main_v28 (broadcastInDim S1600000 ![] bcast_S_S1600000 : (⟨S_, .f32⟩ : BufTy).Contents (Elt F) → (⟨S1600000, .f32⟩ : BufTy).Contents (Elt F)),
    binary main_v26 main_v28 main_v29 (Host.divf : (⟨S1600000, .f32⟩ : BufTy).Contents (Elt F) → (⟨S1600000, .f32⟩ : BufTy).Contents (Elt F) → (⟨S1600000, .f32⟩ : BufTy).Contents (Elt F)),
    unary main_v29 main_v30 (Host.exp : (⟨S1600000, .f32⟩ : BufTy).Contents (Elt F) → (⟨S1600000, .f32⟩ : BufTy).Contents (Elt F)),
    nullary main_cst_7 (constant S_ .f32 0x00000000#32),
    unary main_cst_7 main_v31 (broadcastInDim S100000 ![] bcast_S_S100000 : (⟨S_, .f32⟩ : BufTy).Contents (Elt F) → (⟨S100000, .f32⟩ : BufTy).Contents (Elt F)),
    unary main_arg4 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    unary main_v30 main_v34 (broadcastInDim S1600000x1 ![0] bcast_S1600000_S1600000x1_0 : (⟨S1600000, .f32⟩ : BufTy).Contents (Elt F) → (⟨S1600000x1, .f32⟩ : BufTy).Contents (Elt F)),
    nullary main_c_8 (constantI S_ 32 0#32),
    unary main_c_8 main_v35 (broadcastInDim S1600000 ![] bcast_S_S1600000 : (⟨S_, .i32⟩ : BufTy).Contents (Elt F) → (⟨S1600000, .i32⟩ : BufTy).Contents (Elt F)),
    binary main_arg5 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v37 (broadcastInDim S1600000 ![] bcast_S_S1600000 : (⟨S_, .i32⟩ : BufTy).Contents (Elt F) → (⟨S1600000, .i32⟩ : BufTy).Contents (Elt F)),
    binary main_arg5 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_arg5 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v0 main_v40 main_v41 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v34 main_v42 (broadcastInDim S1600000x32 ![0, 1] bcast_S1600000x1_S1600000x32_0_1 : (⟨S1600000x1, .f32⟩ : BufTy).Contents (Elt F) → (⟨S1600000x32, .f32⟩ : BufTy).Contents (Elt F)),
    binary main_v42 main_v41 main_v43 (mulf : (⟨S1600000x32, .f32⟩ : BufTy).Contents (Elt F) → (⟨S1600000x32, .f32⟩ : BufTy).Contents (Elt F) → (⟨S1600000x32, .f32⟩ : BufTy).Contents (Elt F)),
    nullary main_cst_10 (constant S_ .f32 0x00000000#32),
    unary main_cst_10 main_v44 (broadcastInDim S100000x32 ![] bcast_S_S100000x32 : (⟨S_, .f32⟩ : BufTy).Contents (Elt F) → (⟨S100000x32, .f32⟩ : BufTy).Contents (Elt F)),
    unary main_arg4 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_v33 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x32 ![0, 1] bcast_S100000x1_S100000x32_0_1 : (⟨S100000x1, .f32⟩ : BufTy).Contents (Elt F) → (⟨S100000x32, .f32⟩ : BufTy).Contents (Elt F)),
    binary main_v46 main_v48 main_v49 (Host.divf : (⟨S100000x32, .f32⟩ : BufTy).Contents (Elt F) → (⟨S100000x32, .f32⟩ : BufTy).Contents (Elt F) → (⟨S100000x32, .f32⟩ : BufTy).Contents (Elt F)) ]

-- sixty-nine binds re-associated: the rewrite under the chain recurses once per statement
set_option maxRecDepth 4096 in
set_option maxHeartbeats 4000000 in
/-- @main is that straight line: its two windows in order, the two functions' bodies unfolded at their calls and
    the call's record at its fields; both sides are then one chain of steps once sequencing is reassociated. -/
theorem main_eq (c : Dev nD) : main (F := F) c = seq ops := by
  simp only [main, main_part0, main_part1, fn_leaky_relu.body, fn_where.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
/-- Every operation reads and writes TensorCore buffers only. -/
theorem ops_sub : (ops : List (HloOp τ sig (Elt F))).Forall fun op => op.bufs ⊆ tcRefs τ sig :=
  ⟨binary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., unary_bufs_sub .., binary_bufs_sub .., binary_bufs_sub .., unary_bufs_sub .., binary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

attribute [local irreducible] Host.reduce Host.gather Host.scatterAdd Host.reduceAdd Host.divf Host.exp in
set_option maxRecDepth 8192 in
set_option maxHeartbeats 4000000 in
/-- The result buffer after the line, from any contents: each operation's result read at its own buffer is its
    function of its operands' contents and elsewhere what was there, so the fold at the result buffer is the
    operations' composed term over the arguments' contents, which is `Spec.result` stage by stage. The array
    functions (the product of matrices, the sums, the gathers and scatters, the quotient and the exponential)
    stay folded throughout: the equation never looks inside them. -/
theorem result_eq (V : Valuation τ sig (Elt F)) :
    after ops V (Proc.devRef .tc main_v49)
      = Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  simp only [Spec.result, Spec.finish, Spec.aggregate, Spec.weighted, Spec.featPerEdge, Spec.rowsSum, Spec.att,
    Spec.normExp, Spec.gmax, Spec.gmin, Spec.lrelu, Spec.perEdge, Spec.half, Spec.proj, Spec.idxCol]
  rfl

/-- No operation writes `main_arg0`: it keeps its contents. -/
theorem arg0_eq (V : Valuation τ sig (Elt F)) : after ops V (Proc.devRef .tc main_arg0) = V (Proc.devRef .tc main_arg0) := by
  after_results_simp

/-- No operation writes `main_arg1`: it keeps its contents. -/
theorem arg1_eq (V : Valuation τ sig (Elt F)) : after ops V (Proc.devRef .tc main_arg1) = V (Proc.devRef .tc main_arg1) := by
  after_results_simp

/-- No operation writes `main_arg2`: it keeps its contents. -/
theorem arg2_eq (V : Valuation τ sig (Elt F)) : after ops V (Proc.devRef .tc main_arg2) = V (Proc.devRef .tc main_arg2) := by
  after_results_simp

/-- No operation writes `main_arg3`: it keeps its contents. -/
theorem arg3_eq (V : Valuation τ sig (Elt F)) : after ops V (Proc.devRef .tc main_arg3) = V (Proc.devRef .tc main_arg3) := by
  after_results_simp

/-- No operation writes `main_arg4`: it keeps its contents. -/
theorem arg4_eq (V : Valuation τ sig (Elt F)) : after ops V (Proc.devRef .tc main_arg4) = V (Proc.devRef .tc main_arg4) := by
  after_results_simp

/-- No operation writes `main_arg5`: it keeps its contents. -/
theorem arg5_eq (V : Valuation τ sig (Elt F)) : after ops V (Proc.devRef .tc main_arg5) = V (Proc.devRef .tc main_arg5) := by
  after_results_simp

/-- On every device, for any float values, from any memory with zero counters: every weakly fair execution of
    @main terminates with the result buffer at `Spec.result` of the six arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefRun

end
-- ==== Proof.lean ====
/-
  The certificate of a sparse graph-attention layer: a kernel program of three pipelined regions among host gathers
  and scatter-adds, against the plain host reference.

  Both programs compute, from node features X [100000, 256], a projection W [256, 32], two attention vectors a0, a1
  [1, 32] and the edges' destination and source indices (1600000 each):
      Xp = X · W;   s0 = Xp · a0ᵀ,  s1 = Xp · a1ᵀ (one number per node);
      l_e = leaky_relu(s0[row_e] + s1[col_e]);   att_e = exp((l_e − min l) / (max l − min l));
      out[i, :] = (Σ_{row_e = i} att_e · Xp[col_e, :]) / (Σ_{row_e = i} att_e).
  The kernel program computes Xp, s0, s1 in a first region (row blocks of 5000; a matrix product into a zero
  accumulator and two lane sums), the per-edge chain in a second region on the gathered halves laid out as
  [12500, 128] (the global minimum and maximum taken lane-wise first and then over the rows), and the scaling of the
  gathered rows by the weights in a third (row blocks of 8000); the gathers, the two scatter-adds and the final
  quotient are the same host operations in both programs.  Over the extended reals a change of float format is the
  identity, a matrix product into zero and a lane sum are the same finite sums as the host's, a minimum of row minima
  is the minimum of all entries, and a reshape that only adds a unit axis is a broadcast; so the two results are one
  function of the arguments, with no use of the inputs' finiteness.

  The frames of the two kernel programs are the generated ones; the reference's frame is its run with the result
  dropped; the idealization rewrote nothing, so its statement is trivial.
-/
import proofs.«145616_j62182536511744_1_alg».proof.Defs
import proofs.«145616_j62182536511744_1_alg».proof.Proof.Gen.Kernel
import proofs.«145616_j62182536511744_1_alg».proof.Proof.Gen.Kernel.Frame
import proofs.«145616_j62182536511744_1_alg».proof.Proof.Gen.KernelIdeal
import proofs.«145616_j62182536511744_1_alg».proof.Proof.Gen.KernelIdeal.Frame
import proofs.«145616_j62182536511744_1_alg».proof.Proof.Gen.ReferenceIdeal
import proofs.«145616_j62182536511744_1_alg».proof.Proof.Gen.Pre_finite_inputs
import proofs.«145616_j62182536511744_1_alg».proof.Proof.KRun
import proofs.«145616_j62182536511744_1_alg».proof.Proof.KValue
import proofs.«145616_j62182536511744_1_alg».proof.Proof.RefRun

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the result array at the reference's
    function of the arguments: the kernel program's last boundary contents are that function (`KValue.value`), the
    reference's run ends at it by construction. -/
theorem algebraic : Cert.algebraic_KernelIdeal_ReferenceIdeal := by
  intro m ρ m' ρ' _ hagree
  refine ⟨fun c => Cert.ReferenceIdeal.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.KRun.run_main (F := Ideal) m ρ)
  · refine (θ_run Cert.ReferenceIdeal.defs _ _).mono (fun _ h c => ⟨?_, (h c).2⟩)
      (Cert.ReferenceIdeal.RefRun.run (F := Ideal) m' ρ')
    obtain ⟨e0, e1, e2, e3, e4, e5⟩ := hagree c
    rw [(h c).1, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
